-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v7_0)) (v1 : (c : Dev Cert.KernelIdeal.nD) → Buf (Elt Ideal) ((c.tc : Thread Cert.KernelIdeal.nD Cert.KernelIdeal.τ).loc Cert.KernelIdeal.main_v7_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7_0) = v0 c
          ∧ r.2.mem ((c.tc : Thread Cert.KernelIdeal.nD Cert.KernelIdeal.τ).loc Cert.KernelIdeal.main_v7_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v56) = v0 c
          ∧ r.2.mem ((c.tc : Thread Cert.ReferenceIdeal.nD Cert.ReferenceIdeal.τ).loc Cert.ReferenceIdeal.main_v46) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x2048 : Shape := ⟨2, ![4096, 2048]⟩
abbrev S1024x4096 : Shape := ⟨2, ![1024, 4096]⟩
abbrev S4096 : Shape := ⟨1, ![4096]⟩
abbrev S_ : Shape := ⟨0, ![]⟩

class Facts : Prop where
  bcast_S_S4096x2048 : S_.BroadcastsInDim S4096x2048 (![] : Fin 0 → Fin S4096x2048.rank)
  reducesTo_S4096x2048_S_d0_1 : S4096x2048.ReducesTo [0, 1] S_
  h_S_ : 0 < S_.numel
  bcast_S_S1024x4096 : S_.BroadcastsInDim S1024x4096 (![] : Fin 0 → Fin S1024x4096.rank)
  reducesTo_S1024x4096_S_d0_1 : S1024x4096.ReducesTo [0, 1] S_
  bcast_S_S4096 : S_.BroadcastsInDim S4096 (![] : Fin 0 → Fin S4096.rank)
  reducesTo_S4096_S_d0 : S4096.ReducesTo [0] S_

variable [Facts]

def fn_part2 {F : FTy → Type} [FloatOps F] (main_arg7 : FVec F S4096 .f32) (main_arg8 : FVec F S4096 .f32) (main_v33 : IVec S_ 1) : IVec S_ 1 :=
  let main_v34 : FVec F S4096 .f32 := Host.absf main_arg7
  let main_cst_12 : FVec F S_ .f32 := constant S_ .f32 0x7F800000#32
  let main_v35 : FVec F S4096 .f32 := broadcastInDim S4096 ![] bcast_S_S4096 main_cst_12
  let main_v36 : IVec S4096 1 := cmpf .olt main_v34 main_v35
  let main_c_13 : IVec S_ 1 := constantI S_ 1 1#1
  let main_v37 : IVec S_ 1 := (fun x v => Host.reduce IntOp.andi x v reducesTo_S4096_S_d0 h_S_) main_v36 main_c_13
  let main_v38 : IVec S_ 1 := andi main_v33 main_v37
  let main_v39 : FVec F S4096 .f32 := Host.absf main_arg8
  let main_cst_14 : FVec F S_ .f32 := constant S_ .f32 0x7F800000#32
  let main_v40 : FVec F S4096 .f32 := broadcastInDim S4096 ![] bcast_S_S4096 main_cst_14
  let main_v41 : IVec S4096 1 := cmpf .olt main_v39 main_v40
  let main_c_15 : IVec S_ 1 := constantI S_ 1 1#1
  let main_v42 : IVec S_ 1 := (fun x v => Host.reduce IntOp.andi x v reducesTo_S4096_S_d0 h_S_) main_v41 main_c_15
  let main_v43 : IVec S_ 1 := andi main_v38 main_v42
  main_v43

def fn_part1 {F : FTy → Type} [FloatOps F] (main_arg4 : FVec F S1024x4096 .f32) (main_arg5 : FVec F S1024x4096 .f32) (main_arg6 : FVec F S1024x4096 .f32) (main_arg7 : FVec F S4096 .f32) (main_arg8 : FVec F S4096 .f32) (main_v13 : IVec S_ 1) (main_v16 : IVec S1024x4096 1) : IVec S_ 1 :=
  let main_c_5 : IVec S_ 1 := constantI S_ 1 1#1
  let main_v17 : IVec S_ 1 := (fun x v => Host.reduce IntOp.andi x v reducesTo_S1024x4096_S_d0_1 h_S_) main_v16 main_c_5
  let main_v18 : IVec S_ 1 := andi main_v13 main_v17
  let main_v19 : FVec F S1024x4096 .f32 := Host.absf main_arg4
  let main_cst_6 : FVec F S_ .f32 := constant S_ .f32 0x7F800000#32
  let main_v20 : FVec F S1024x4096 .f32 := broadcastInDim S1024x4096 ![] bcast_S_S1024x4096 main_cst_6
  let main_v21 : IVec S1024x4096 1 := cmpf .olt main_v19 main_v20
  let main_c_7 : IVec S_ 1 := constantI S_ 1 1#1
  let main_v22 : IVec S_ 1 := (fun x v => Host.reduce IntOp.andi x v reducesTo_S1024x4096_S_d0_1 h_S_) main_v21 main_c_7
  let main_v23 : IVec S_ 1 := andi main_v18 main_v22
  let main_v24 : FVec F S1024x4096 .f32 := Host.absf main_arg5
  let main_cst_8 : FVec F S_ .f32 := constant S_ .f32 0x7F800000#32
  let main_v25 : FVec F S1024x4096 .f32 := broadcastInDim S1024x4096 ![] bcast_S_S1024x4096 main_cst_8
  let main_v26 : IVec S1024x4096 1 := cmpf .olt main_v24 main_v25
  let main_c_9 : IVec S_ 1 := constantI S_ 1 1#1
  let main_v27 : IVec S_ 1 := (fun x v => Host.reduce IntOp.andi x v reducesTo_S1024x4096_S_d0_1 h_S_) main_v26 main_c_9
  let main_v28 : IVec S_ 1 := andi main_v23 main_v27
  let main_v29 : FVec F S1024x4096 .f32 := Host.absf main_arg6
  let main_cst_10 : FVec F S_ .f32 := constant S_ .f32 0x7F800000#32
  let main_v30 : FVec F S1024x4096 .f32 := broadcastInDim S1024x4096 ![] bcast_S_S1024x4096 main_cst_10
  let main_v31 : IVec S1024x4096 1 := cmpf .olt main_v29 main_v30
  let main_c_11 : IVec S_ 1 := constantI S_ 1 1#1
  let main_v32 : IVec S_ 1 := (fun x v => Host.reduce IntOp.andi x v reducesTo_S1024x4096_S_d0_1 h_S_) main_v31 main_c_11
  let main_v33 : IVec S_ 1 := andi main_v28 main_v32
  fn_part2 (F := F) main_arg7 main_arg8 main_v33

def fn {F : FTy → Type} [FloatOps F] (main_arg0 : FVec F S4096x2048 .f32) (main_arg1 : FVec F S4096x2048 .f32) (main_arg2 : FVec F S4096x2048 .f32) (main_arg3 : FVec F S1024x4096 .f32) (main_arg4 : FVec F S1024x4096 .f32) (main_arg5 : FVec F S1024x4096 .f32) (main_arg6 : FVec F S1024x4096 .f32) (main_arg7 : FVec F S4096 .f32) (main_arg8 : FVec F S4096 .f32) : IVec S_ 1 :=
  let main_v0 : FVec F S4096x2048 .f32 := Host.absf main_arg0
  let main_cst : FVec F S_ .f32 := constant S_ .f32 0x7F800000#32
  let main_v1 : FVec F S4096x2048 .f32 := broadcastInDim S4096x2048 ![] bcast_S_S4096x2048 main_cst
  let main_v2 : IVec S4096x2048 1 := cmpf .olt main_v0 main_v1
  let main_c : IVec S_ 1 := constantI S_ 1 1#1
  let main_v3 : IVec S_ 1 := (fun x v => Host.reduce IntOp.andi x v reducesTo_S4096x2048_S_d0_1 h_S_) main_v2 main_c
  let main_v4 : FVec F S4096x2048 .f32 := Host.absf main_arg1
  let main_cst_0 : FVec F S_ .f32 := constant S_ .f32 0x7F800000#32
  let main_v5 : FVec F S4096x2048 .f32 := broadcastInDim S4096x2048 ![] bcast_S_S4096x2048 main_cst_0
  let main_v6 : IVec S4096x2048 1 := cmpf .olt main_v4 main_v5
  let main_c_1 : IVec S_ 1 := constantI S_ 1 1#1
  let main_v7 : IVec S_ 1 := (fun x v => Host.reduce IntOp.andi x v reducesTo_S4096x2048_S_d0_1 h_S_) main_v6 main_c_1
  let main_v8 : IVec S_ 1 := andi main_v3 main_v7
  let main_v9 : FVec F S4096x2048 .f32 := Host.absf main_arg2
  let main_cst_2 : FVec F S_ .f32 := constant S_ .f32 0x7F800000#32
  let main_v10 : FVec F S4096x2048 .f32 := broadcastInDim S4096x2048 ![] bcast_S_S4096x2048 main_cst_2
  let main_v11 : IVec S4096x2048 1 := cmpf .olt main_v9 main_v10
  let main_c_3 : IVec S_ 1 := constantI S_ 1 1#1
  let main_v12 : IVec S_ 1 := (fun x v => Host.reduce IntOp.andi x v reducesTo_S4096x2048_S_d0_1 h_S_) main_v11 main_c_3
  let main_v13 : IVec S_ 1 := andi main_v8 main_v12
  let main_v14 : FVec F S1024x4096 .f32 := Host.absf main_arg3
  let main_cst_4 : FVec F S_ .f32 := constant S_ .f32 0x7F800000#32
  let main_v15 : FVec F S1024x4096 .f32 := broadcastInDim S1024x4096 ![] bcast_S_S1024x4096 main_cst_4
  let main_v16 : IVec S1024x4096 1 := cmpf .olt main_v14 main_v15
  fn_part1 (F := F) main_arg4 main_arg5 main_arg6 main_arg7 main_arg8 main_v13 main_v16
-- ==== Kernel.lean ====
abbrev S4096x2048 : Shape := ⟨2, ![4096, 2048]⟩
abbrev S1024x4096 : Shape := ⟨2, ![1024, 4096]⟩
abbrev S4096 : Shape := ⟨1, ![4096]⟩
abbrev S4096x4096 : Shape := ⟨2, ![4096, 4096]⟩
abbrev S1x4096 : Shape := ⟨2, ![1, 4096]⟩
abbrev S64x2048 : Shape := ⟨2, ![64, 2048]⟩
abbrev S64x1024 : Shape := ⟨2, ![64, 1024]⟩
abbrev S64x4096 : Shape := ⟨2, ![64, 4096]⟩

abbrev nBuf : Space → Nat
  | .hbm => 18
  | .vmem => 13
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S4096x2048, .f32⟩
  | .hbm, ⟨3, _⟩ => ⟨S1024x4096, .f32⟩
  | .hbm, ⟨4, _⟩ => ⟨S1024x4096, .f32⟩
  | .hbm, ⟨5, _⟩ => ⟨S1024x4096, .f32⟩
  | .hbm, ⟨6, _⟩ => ⟨S1024x4096, .f32⟩
  | .hbm, ⟨7, _⟩ => ⟨S4096, .f32⟩
  | .hbm, ⟨8, _⟩ => ⟨S4096, .f32⟩
  | .hbm, ⟨9, _⟩ => ⟨S1024x4096, .bf16⟩
  | .hbm, ⟨10, _⟩ => ⟨S1024x4096, .bf16⟩
  | .hbm, ⟨11, _⟩ => ⟨S1024x4096, .bf16⟩
  | .hbm, ⟨12, _⟩ => ⟨S1024x4096, .bf16⟩
  | .hbm, ⟨13, _⟩ => ⟨S4096x4096, .bf16⟩
  | .hbm, ⟨14, _⟩ => ⟨S1x4096, .f32⟩
  | .hbm, ⟨15, _⟩ => ⟨S1x4096, .f32⟩
  | .hbm, ⟨16, _⟩ => ⟨S4096x2048, .f32⟩
  | .hbm, ⟨17, _⟩ => ⟨S4096x2048, .f32⟩
  | .local _ .vmem, ⟨0, _⟩ => ⟨S64x2048, .f32⟩
  | .local _ .vmem, ⟨1, _⟩ => ⟨S64x2048, .f32⟩
  | .local _ .vmem, ⟨2, _⟩ => ⟨S64x2048, .f32⟩
  | .local _ .vmem, ⟨3, _⟩ => ⟨S64x2048, .f32⟩
  | .local _ .vmem, ⟨4, _⟩ => ⟨S64x2048, .f32⟩
  | .local _ .vmem, ⟨5, _⟩ => ⟨S64x2048, .f32⟩
  | .local _ .vmem, ⟨6, _⟩ => ⟨S4096x4096, .bf16⟩
  | .local _ .vmem, ⟨7, _⟩ => ⟨S1x4096, .f32⟩
  | .local _ .vmem, ⟨8, _⟩ => ⟨S1x4096, .f32⟩
  | .local _ .vmem, ⟨9, _⟩ => ⟨S64x1024, .f32⟩
  | .local _ .vmem, ⟨10, _⟩ => ⟨S64x1024, .f32⟩
  | .local _ .vmem, ⟨11, _⟩ => ⟨S64x1024, .f32⟩
  | .local _ .vmem, ⟨12, _⟩ => ⟨S64x1024, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7_0 : Ref sig .tc := ⟨.hbm, 16, rfl⟩
abbrev main_v7_1 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨2, ![2, 64], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S64x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S64x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S64x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 1 → Memref sig .tc .vmem S4096x4096 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x4096 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x4096 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S64x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S64x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

class Facts₀ : Prop where
  bitsLt_bf16_f32 : FTy.bits .bf16 < FTy.bits .f32
  concatenates_S1024x4096_S1024x4096_S1024x4096_S1024x4096_S4096x4096_d0 : Shape.Concatenates [S1024x4096, S1024x4096, S1024x4096, S1024x4096] S4096x4096 0
  shapeCasts_S4096_S1x4096 : S4096.ShapeCasts S1x4096
  inb_S64x2048_S64x1024_0_0 : ∀ a, (![0, 0] : Fin 2 → Nat) a + S64x1024.size a ≤ S64x2048.size a
  h_S64x1024 : 0 < S64x1024.numel
  inb_S64x2048_S64x1024_0_1024 : ∀ a, (![0, 1024] : Fin 2 → Nat) a + S64x1024.size a ≤ S64x2048.size a
  concatenates_S64x1024_S64x1024_S64x1024_S64x1024_S64x4096_d1 : Shape.Concatenates [S64x1024, S64x1024, S64x1024, S64x1024] S64x4096 1
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  inb_S4096x4096_S4096x4096_0_0 : ∀ a, (![0, 0] : Fin 2 → Nat) a + S4096x4096.size a ≤ S4096x4096.size a
  h_S4096x4096 : 0 < S4096x4096.numel
  shapeCasts_S4096x4096_S4096x4096 : S4096x4096.ShapeCasts S4096x4096
  broadcasts_S1x4096_S64x4096 : S1x4096.Broadcasts S64x4096
  slices_S64x4096_o0_0_S64x1024 : S64x4096.Slices ![0, 0] S64x1024
  slices_S64x4096_o0_1024_S64x1024 : S64x4096.Slices ![0, 1024] S64x1024
  slices_S64x4096_o0_2048_S64x1024 : S64x4096.Slices ![0, 2048] S64x1024
  slices_S64x4096_o0_3072_S64x1024 : S64x4096.Slices ![0, 3072] S64x1024
  inb_S64x1024_S64x1024_0_0 : ∀ a, (![0, 0] : Fin 2 → Nat) a + S64x1024.size a ≤ S64x1024.size a
  dot_S64x4096_S4096x4096_S64x4096_1_0_0_1_n_n_wf : DotDims.WF S64x4096 S4096x4096 S64x4096 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S64x2048.size a ≤ S4096x2048.size a
  hwx0_0 : ∀ i : grid0.Coords, EltTy.bits .f32 = 32 ∨ (Rect.block (s := S4096x2048) S64x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S64x2048.size a ≤ S4096x2048.size a
  hwx0_1 : ∀ i : grid0.Coords, EltTy.bits .f32 = 32 ∨ (Rect.block (s := S4096x2048) S64x2048.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S64x2048.size a ≤ S4096x2048.size a
  hwx0_2 : ∀ i : grid0.Coords, EltTy.bits .f32 = 32 ∨ (Rect.block (s := S4096x2048) S64x2048.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S4096x4096.size a ≤ S4096x4096.size a
  hwx0_3 : ∀ i : grid0.Coords, EltTy.bits .bf16 = 32 ∨ (Rect.block (s := S4096x4096) S4096x4096.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x4096.size a ≤ S1x4096.size a
  hwx0_4 : ∀ i : grid0.Coords, EltTy.bits .f32 = 32 ∨ (Rect.block (s := S1x4096) S1x4096.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x4096.size a ≤ S1x4096.size a
  hwx0_5 : ∀ i : grid0.Coords, EltTy.bits .f32 = 32 ∨ (Rect.block (s := S1x4096) S1x4096.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S64x1024.size a ≤ S4096x2048.size a
  hwx0_6 : ∀ i : grid0.Coords, EltTy.bits .f32 = 32 ∨ (Rect.block (s := S4096x2048) S64x1024.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S64x1024.size a ≤ S4096x2048.size a
  hwx0_7 : ∀ i : grid0.Coords, EltTy.bits .f32 = 32 ∨ (Rect.block (s := S4096x2048) S64x1024.size (cc0_transform_7 i) (hinb0_7 i)).WholeWords (EltTy.packing .f32)

variable [Facts₀]

def dot_S64x4096_S4096x4096_S64x4096_1_0_0_1_n_n : DotDims S64x4096 S4096x4096 S64x4096 where
  lhsContracting := [1]
  rhsContracting := [0]
  lhsNonContracting := [0]
  rhsNonContracting := [1]
  lhsBatch := []
  rhsBatch := []
  wf := dot_S64x4096_S4096x4096_S64x4096_1_0_0_1_n_n_wf

abbrev win0_0 : Pipeline.Window sig grid0 :=
  Pipeline.Window.ofSpec (Memref.whole main_arg0) S64x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S64x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S64x2048.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v4) S4096x4096.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v5) S1x4096.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v6) S1x4096.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v7_0) S64x1024.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v7_1) S64x1024.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S4096x2048 : Shape := ⟨2, ![4096, 2048]⟩
abbrev S1024x4096 : Shape := ⟨2, ![1024, 4096]⟩
abbrev S4096 : Shape := ⟨1, ![4096]⟩
abbrev S4096x1024 : Shape := ⟨2, ![4096, 1024]⟩
abbrev S4096x4096 : Shape := ⟨2, ![4096, 4096]⟩
abbrev S1x4096 : Shape := ⟨2, ![1, 4096]⟩
abbrev S_ : Shape := ⟨0, ![]⟩

abbrev nBuf : Space → Nat
  | .hbm => 93
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S4096x2048, .f32⟩
  | .hbm, ⟨3, _⟩ => ⟨S1024x4096, .f32⟩
  | .hbm, ⟨4, _⟩ => ⟨S1024x4096, .f32⟩
  | .hbm, ⟨5, _⟩ => ⟨S1024x4096, .f32⟩
  | .hbm, ⟨6, _⟩ => ⟨S1024x4096, .f32⟩
  | .hbm, ⟨7, _⟩ => ⟨S4096, .f32⟩
  | .hbm, ⟨8, _⟩ => ⟨S4096, .f32⟩
  | .hbm, ⟨9, _⟩ => ⟨S4096x1024, .f32⟩
  | .hbm, ⟨10, _⟩ => ⟨S4096x1024, .f32⟩
  | .hbm, ⟨11, _⟩ => ⟨S4096x1024, .f32⟩
  | .hbm, ⟨12, _⟩ => ⟨S4096x1024, .f32⟩
  | .hbm, ⟨13, _⟩ => ⟨S4096x4096, .f32⟩
  | .hbm, ⟨14, _⟩ => ⟨S4096x4096, .f32⟩
  | .hbm, ⟨15, _⟩ => ⟨S4096x4096, .f32⟩
  | .hbm, ⟨16, _⟩ => ⟨S4096x4096, .f32⟩
  | .hbm, ⟨17, _⟩ => ⟨S4096x4096, .f32⟩
  | .hbm, ⟨18, _⟩ => ⟨S4096x4096, .f32⟩
  | .hbm, ⟨19, _⟩ => ⟨S4096x4096, .f32⟩
  | .hbm, ⟨20, _⟩ => ⟨S1x4096, .f32⟩
  | .hbm, ⟨21, _⟩ => ⟨S4096x4096, .f32⟩
  | .hbm, ⟨22, _⟩ => ⟨S4096x4096, .f32⟩
  | .hbm, ⟨23, _⟩ => ⟨S4096x4096, .f32⟩
  | .hbm, ⟨24, _⟩ => ⟨S4096x4096, .f32⟩
  | .hbm, ⟨25, _⟩ => ⟨S4096x4096, .f32⟩
  | .hbm, ⟨26, _⟩ => ⟨S4096x4096, .f32⟩
  | .hbm, ⟨27, _⟩ => ⟨S4096x4096, .f32⟩
  | .hbm, ⟨28, _⟩ => ⟨S4096x4096, .f32⟩
  | .hbm, ⟨29, _⟩ => ⟨S4096x4096, .f32⟩
  | .hbm, ⟨30, _⟩ => ⟨S1x4096, .f32⟩
  | .hbm, ⟨31, _⟩ => ⟨S4096x4096, .f32⟩
  | .hbm, ⟨32, _⟩ => ⟨S4096x4096, .f32⟩
  | .hbm, ⟨33, _⟩ => ⟨S4096x1024, .f32⟩
  | .hbm, ⟨34, _⟩ => ⟨S4096x1024, .f32⟩
  | .hbm, ⟨35, _⟩ => ⟨S4096x2048, .f32⟩
  | .hbm, ⟨36, _⟩ => ⟨S_, .f32⟩
  | .hbm, ⟨37, _⟩ => ⟨S4096x2048, .f32⟩
  | .hbm, ⟨38, _⟩ => ⟨S4096x2048, .f32⟩
  | .hbm, ⟨39, _⟩ => ⟨S_, .f32⟩
  | .hbm, ⟨40, _⟩ => ⟨S4096x2048, .f32⟩
  | .hbm, ⟨41, _⟩ => ⟨S4096x2048, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S4096x2048, .f32⟩
  | .hbm, ⟨46, _⟩ => ⟨S4096x2048, .f32⟩
  | .hbm, ⟨47, _⟩ => ⟨S_, .f32⟩
  | .hbm, ⟨48, _⟩ => ⟨S4096x2048, .f32⟩
  | .hbm, ⟨49, _⟩ => ⟨S4096x2048, .f32⟩
  | .hbm, ⟨50, _⟩ => ⟨S4096x1024, .f32⟩
  | .hbm, ⟨51, _⟩ => ⟨S4096x1024, .f32⟩
  | .hbm, ⟨52, _⟩ => ⟨S4096x2048, .f32⟩
  | .hbm, ⟨53, _⟩ => ⟨S_, .f32⟩
  | .hbm, ⟨54, _⟩ => ⟨S4096x2048, .f32⟩
  | .hbm, ⟨55, _⟩ => ⟨S4096x2048, .f32⟩
  | .hbm, ⟨56, _⟩ => ⟨S_, .f32⟩
  | .hbm, ⟨57, _⟩ => ⟨S4096x2048, .f32⟩
  | .hbm, ⟨58, _⟩ => ⟨S4096x2048, .f32⟩
  | .hbm, ⟨59, _⟩ => ⟨S_, .f32⟩
  | .hbm, ⟨60, _⟩ => ⟨S_, .f32⟩
  | .hbm, ⟨61, _⟩ => ⟨S_, .f32⟩
  | .hbm, ⟨62, _⟩ => ⟨S4096x2048, .f32⟩
  | .hbm, ⟨63, _⟩ => ⟨S4096x2048, .f32⟩
  | .hbm, ⟨64, _⟩ => ⟨S_, .f32⟩
  | .hbm, ⟨65, _⟩ => ⟨S4096x2048, .f32⟩
  | .hbm, ⟨66, _⟩ => ⟨S4096x2048, .f32⟩
  | .hbm, ⟨67, _⟩ => ⟨S4096x2048, .f32⟩
  | .hbm, ⟨68, _⟩ => ⟨S4096x1024, .f32⟩
  | .hbm, ⟨69, _⟩ => ⟨S4096x1024, .f32⟩
  | .hbm, ⟨70, _⟩ => ⟨S4096x2048, .f32⟩
  | .hbm, ⟨71, _⟩ => ⟨S4096x2048, .f32⟩
  | .hbm, ⟨72, _⟩ => ⟨S4096x2048, .f32⟩
  | .hbm, ⟨73, _⟩ => ⟨S4096x2048, .f32⟩
  | .hbm, ⟨74, _⟩ => ⟨S4096x1024, .f32⟩
  | .hbm, ⟨75, _⟩ => ⟨S4096x1024, .f32⟩
  | .hbm, ⟨76, _⟩ => ⟨S4096x2048, .f32⟩
  | .hbm, ⟨77, _⟩ => ⟨S_, .f32⟩
  | .hbm, ⟨78, _⟩ => ⟨S4096x2048, .f32⟩
  | .hbm, ⟨79, _⟩ => ⟨S4096x2048, .f32⟩
  | .hbm, ⟨80, _⟩ => ⟨S_, .f32⟩
  | .hbm, ⟨81, _⟩ => ⟨S4096x2048, .f32⟩
  | .hbm, ⟨82, _⟩ => ⟨S4096x2048, .f32⟩
  | .hbm, ⟨83, _⟩ => ⟨S_, .f32⟩
  | .hbm, ⟨84, _⟩ => ⟨S_, .f32⟩
  | .hbm, ⟨85, _⟩ => ⟨S_, .f32⟩
  | .hbm, ⟨86, _⟩ => ⟨S4096x2048, .f32⟩
  | .hbm, ⟨87, _⟩ => ⟨S4096x2048, .f32⟩
  | .hbm, ⟨88, _⟩ => ⟨S_, .f32⟩
  | .hbm, ⟨89, _⟩ => ⟨S4096x2048, .f32⟩
  | .hbm, ⟨90, _⟩ => ⟨S4096x2048, .f32⟩
  | .hbm, ⟨91, _⟩ => ⟨S4096x2048, .f32⟩
  | .hbm, ⟨92, _⟩ => ⟨S4096x2048, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_cst : Ref sig .tc := ⟨.hbm, 36, rfl⟩
abbrev main_v27 : Ref sig .tc := ⟨.hbm, 37, rfl⟩
abbrev main_v28 : Ref sig .tc := ⟨.hbm, 38, rfl⟩
abbrev main_cst_0 : Ref sig .tc := ⟨.hbm, 39, rfl⟩
abbrev main_v29 : Ref sig .tc := ⟨.hbm, 40, rfl⟩
abbrev main_v30 : Ref sig .tc := ⟨.hbm, 41, rfl⟩
abbrev main_cst_1 : Ref sig .tc := ⟨.hbm, 42, rfl⟩
abbrev main_cst_2 : Ref sig .tc := ⟨.hbm, 43, rfl⟩
abbrev main_call0_v0 : Ref sig .tc := ⟨.hbm, 44, rfl⟩
abbrev main_call0_v1 : Ref sig .tc := ⟨.hbm, 45, rfl⟩
abbrev main_call0_v2 : Ref sig .tc := ⟨.hbm, 46, rfl⟩
abbrev main_call0_v3 : Ref sig .tc := ⟨.hbm, 47, rfl⟩
abbrev main_call0_v4 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_cst_3 : Ref sig .tc := ⟨.hbm, 53, rfl⟩
abbrev main_v35 : Ref sig .tc := ⟨.hbm, 54, rfl⟩
abbrev main_v36 : Ref sig .tc := ⟨.hbm, 55, rfl⟩
abbrev main_cst_4 : Ref sig .tc := ⟨.hbm, 56, rfl⟩
abbrev main_v37 : Ref sig .tc := ⟨.hbm, 57, rfl⟩
abbrev main_v38 : Ref sig .tc := ⟨.hbm, 58, rfl⟩
abbrev main_cst_5 : Ref sig .tc := ⟨.hbm, 59, rfl⟩
abbrev main_cst_6 : Ref sig .tc := ⟨.hbm, 60, rfl⟩
abbrev main_call1_v0 : Ref sig .tc := ⟨.hbm, 61, rfl⟩
abbrev main_call1_v1 : Ref sig .tc := ⟨.hbm, 62, rfl⟩
abbrev main_call1_v2 : Ref sig .tc := ⟨.hbm, 63, rfl⟩
abbrev main_call1_v3 : Ref sig .tc := ⟨.hbm, 64, rfl⟩
abbrev main_call1_v4 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_cst_7 : Ref sig .tc := ⟨.hbm, 77, rfl⟩
abbrev main_v50 : Ref sig .tc := ⟨.hbm, 78, rfl⟩
abbrev main_v51 : Ref sig .tc := ⟨.hbm, 79, rfl⟩
abbrev main_cst_8 : Ref sig .tc := ⟨.hbm, 80, rfl⟩
abbrev main_v52 : Ref sig .tc := ⟨.hbm, 81, rfl⟩
abbrev main_v53 : Ref sig .tc := ⟨.hbm, 82, rfl⟩
abbrev main_cst_9 : Ref sig .tc := ⟨.hbm, 83, rfl⟩
abbrev main_cst_10 : Ref sig .tc := ⟨.hbm, 84, rfl⟩
abbrev main_call2_v0 : Ref sig .tc := ⟨.hbm, 85, rfl⟩
abbrev main_call2_v1 : Ref sig .tc := ⟨.hbm, 86, rfl⟩
abbrev main_call2_v2 : Ref sig .tc := ⟨.hbm, 87, rfl⟩
abbrev main_call2_v3 : Ref sig .tc := ⟨.hbm, 88, rfl⟩
abbrev main_call2_v4 : Ref sig .tc := ⟨.hbm, 89, rfl⟩
abbrev main_v54 : Ref sig .tc := ⟨.hbm, 90, rfl⟩
abbrev main_v55 : Ref sig .tc := ⟨.hbm, 91, rfl⟩
abbrev main_v56 : Ref sig .tc := ⟨.hbm, 92, rfl⟩

abbrev nD : Nat := 1
abbrev τ : Topo := Topo.v7x

variable {F : FTy → Type} [FloatOps F]

class Facts₀ : Prop where
  slices_S4096x2048_S4096x1024_0_0 : S4096x2048.Slices ![0, 0] S4096x1024
  slices_S4096x2048_S4096x1024_0_1024 : S4096x2048.Slices ![0, 1024] S4096x1024
  bcast_S4096_S1x4096_1 : S4096.BroadcastsInDim S1x4096 (![1] : Fin 1 → Fin S1x4096.rank)
  bcast_S1x4096_S4096x4096_0_1 : S1x4096.BroadcastsInDim S4096x4096 (![0, 1] : Fin 2 → Fin S4096x4096.rank)
  slices_S4096x4096_S4096x1024_0_0 : S4096x4096.Slices ![0, 0] S4096x1024
  concatenates_S4096x1024_S4096x1024_S4096x2048_d1 : Shape.Concatenates [S4096x1024, S4096x1024] S4096x2048 1
  bcast_S_S4096x2048 : S_.BroadcastsInDim S4096x2048 (![] : Fin 0 → Fin S4096x2048.rank)
  slices_S4096x4096_S4096x1024_0_1024 : S4096x4096.Slices ![0, 1024] S4096x1024
  slices_S4096x4096_S4096x1024_0_2048 : S4096x4096.Slices ![0, 2048] S4096x1024
  slices_S4096x4096_S4096x1024_0_3072 : S4096x4096.Slices ![0, 3072] S4096x1024
  dot_S4096x1024_S1024x4096_S4096x4096_1_0_0_1_n_n_wf : DotDims.WF S4096x1024 S1024x4096 S4096x4096 [1] [0] [0] [1] [] []

variable [Facts₀]

def dot_S4096x1024_S1024x4096_S4096x4096_1_0_0_1_n_n : DotDims S4096x1024 S1024x4096 S4096x4096 where
  lhsContracting := [1]
  rhsContracting := [0]
  lhsNonContracting := [0]
  rhsNonContracting := [1]
  lhsBatch := []
  rhsBatch := []
  wf := dot_S4096x1024_S1024x4096_S4096x4096_1_0_0_1_n_n_wf

class Facts : Prop extends Facts₀ where

variable [Facts]
-- ==== Proof.FrameBits.lean ====
/-
  The frame of `Kernel`: @main runs to its end, nothing faults, and the nine argument arrays end as they began.

  @main is seven host operations (four changes of float format, the stacking of the four weight matrices along the
  contracted axis, two reshapes of the bias vectors to rows), then ONE region over the grid 2 × 64 (half, batch tile).
  At a grid point the body reads the left and right halves (real and imaginary parts) of the point's 64-row blocks of
  the input and of the two states, the whole stacked weight matrix and the two bias rows, and stores one 64 × 1024
  block of the new cell state and one of the new hidden state, each covering its staging buffer whole. So what each
  output buffer holds after the body is a function of the input blocks alone (`cellBlock`, `hiddenBlock`), every
  input buffer is left as found, and the region's launch theorem applies with the plain invariant (the scoped rest
  and the generator register untouched). The host operations write only their own results, so every argument array
  is found by the region as launched and is an input of it or untouched by it.
  Stated at any float instance `F`.
-/
import proofs.«110221_j51677046505499_2_alg».proof.Proof.Gen.Kernel.Launch
import proofs.«110221_j51677046505499_2_alg».proof.Proof.Gen.Kernel.Skeleton
import proofs.«110221_j51677046505499_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- Core `c`'s buffers when the region is entered: the launch contents after the seven host operations. -/
abbrev V (c : Dev nD) (b : Ref sig .tc) : Buf (Elt F) ((c : Thread nD τ).loc b) :=
  StableHlo.after hostOps0 (fun b => m (c, b)) b

/-- No host operation allocates. -/
theorem hostOps0_fresh : (hostOps0 : List (HloOp τ sig (Elt F))).Forall fun op => op.fresh = ∅ := by
  simp only [List.Forall]; repeat' constructor

/-- @main is the host operations, then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- A buffer that is the result of no host operation is found by the region as launched. -/
theorem V_of_not_result (c : Dev nD) (b : Ref sig .tc)
    (h0 : b ≠ main_v0) (h1 : b ≠ main_v1) (h2 : b ≠ main_v2) (h3 : b ≠ main_v3) (h4 : b ≠ main_v4) (h5 : b ≠ main_v5) (h6 : b ≠ main_v6) :
    V m c b = m ((c : Thread nD τ).loc b) :=
  StableHlo.after_of_forall_not_mem (b := Proc.devRef .tc b) _ _ (List.forall_iff_forall_mem.mp (by
    simp only [hostOps0, List.Forall, StableHlo.unary_writes, StableHlo.nary_writes, StableHlo.reshape_writes, Finset.mem_singleton]
    exact ⟨StableHlo.devRef_ne_of_ne h0, StableHlo.devRef_ne_of_ne h1, StableHlo.devRef_ne_of_ne h2, StableHlo.devRef_ne_of_ne h3,
      StableHlo.devRef_ne_of_ne h4, StableHlo.devRef_ne_of_ne h5, StableHlo.devRef_ne_of_ne h6⟩))

theorem V_main_arg0 (c : Dev nD) : V m c main_arg0 = m ((c : Thread nD τ).loc main_arg0) :=
  V_of_not_result m c _ (by decide) (by decide) (by decide) (by decide) (by decide) (by decide) (by decide)
theorem V_main_arg1 (c : Dev nD) : V m c main_arg1 = m ((c : Thread nD τ).loc main_arg1) :=
  V_of_not_result m c _ (by decide) (by decide) (by decide) (by decide) (by decide) (by decide) (by decide)
theorem V_main_arg2 (c : Dev nD) : V m c main_arg2 = m ((c : Thread nD τ).loc main_arg2) :=
  V_of_not_result m c _ (by decide) (by decide) (by decide) (by decide) (by decide) (by decide) (by decide)
theorem V_main_arg3 (c : Dev nD) : V m c main_arg3 = m ((c : Thread nD τ).loc main_arg3) :=
  V_of_not_result m c _ (by decide) (by decide) (by decide) (by decide) (by decide) (by decide) (by decide)
theorem V_main_arg4 (c : Dev nD) : V m c main_arg4 = m ((c : Thread nD τ).loc main_arg4) :=
  V_of_not_result m c _ (by decide) (by decide) (by decide) (by decide) (by decide) (by decide) (by decide)
theorem V_main_arg5 (c : Dev nD) : V m c main_arg5 = m ((c : Thread nD τ).loc main_arg5) :=
  V_of_not_result m c _ (by decide) (by decide) (by decide) (by decide) (by decide) (by decide) (by decide)
theorem V_main_arg6 (c : Dev nD) : V m c main_arg6 = m ((c : Thread nD τ).loc main_arg6) :=
  V_of_not_result m c _ (by decide) (by decide) (by decide) (by decide) (by decide) (by decide) (by decide)
theorem V_main_arg7 (c : Dev nD) : V m c main_arg7 = m ((c : Thread nD τ).loc main_arg7) :=
  V_of_not_result m c _ (by decide) (by decide) (by decide) (by decide) (by decide) (by decide) (by decide)
theorem V_main_arg8 (c : Dev nD) : V m c main_arg8 = m ((c : Thread nD τ).loc main_arg8) :=
  V_of_not_result m c _ (by decide) (by decide) (by decide) (by decide) (by decide) (by decide) (by decide)

/-! ## The windows' blocks -/

/-- Window `w`'s block at grid point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! An input window's current staging buffer holds its block at every point, whether the point fetches it or its
    block index has not moved since the last fetch (the weights and the bias rows are fetched once): the window is
    whole-block, never idle, and the body leaves it in place. -/

theorem before_in0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

theorem before_in1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

theorem before_in2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

theorem before_in3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

theorem before_in4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

theorem before_in5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the launch theorem's -/

/-- The launch theorem's post read at the nine argument arrays: the input, the two states are arrays of input
    windows (their final contents are their entry contents), the four weight matrices and the two bias vectors are
    staged by no window (the region leaves them as found); and the region found each as launched. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c => ⟨((h c).1 0).trans (((dats 0 c).arrAt_in 0 rfl _).trans ((hA c 0).trans (V_main_arg0 m c))),
      ((h c).1 1).trans (((dats 0 c).arrAt_in 1 rfl _).trans ((hA c 1).trans (V_main_arg1 m c))),
      ((h c).1 2).trans (((dats 0 c).arrAt_in 2 rfl _).trans ((hA c 2).trans (V_main_arg2 m c))),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c)⟩) h

/-! ## The body's accesses -/

/-- The left half (real part) of a 64 × 2048 block. -/
abbrev rLo : Rect S64x2048 := Rect.unit (s := S64x2048) ![0, 0] S64x1024.size inb_S64x2048_S64x1024_0_0
/-- The right half (imaginary part) of a 64 × 2048 block. -/
abbrev rHi : Rect S64x2048 := Rect.unit (s := S64x2048) ![0, 1024] S64x1024.size inb_S64x2048_S64x1024_0_1024
/-- A bias row, whole. -/
abbrev rRow : Rect S1x4096 := Rect.unit (s := S1x4096) ![0, 0] S1x4096.size inb_S1x4096_S1x4096_0_0
/-- The stacked weight matrix, whole. -/
abbrev rW : Rect S4096x4096 := Rect.unit (s := S4096x4096) ![0, 0] S4096x4096.size inb_S4096x4096_S4096x4096_0_0
/-- An output block, whole. -/
abbrev rOut : Rect S64x1024 := Rect.unit (s := S64x1024) ![0, 0] S64x1024.size inb_S64x1024_S64x1024_0_0

/-! ## What the body leaves in each output window's buffer -/

/-- The new cell state's block at grid coordinates `i`, from the input blocks: the input `x0`, the hidden state
    `x1`, the cell state `x2`, the stacked weights `x3`, the real and imaginary bias rows `x4`, `x5`. -/
def cellBlock (i : grid0.Coords) (x0 x1 x2 : Vec F S64x2048 .f32) (x3 : Vec F S4096x4096 .bf16) (x4 x5 : Vec F S1x4096 .f32) : Vec F S64x1024 .f32 :=
  View.canon [⟨rOut, k0_pay1 (k0_pay3 i (View.ld x2 rHi) (View.ld x2 rLo)) (k0_pay5 i (View.ld x0 rLo) (View.ld x0 rHi) (View.ld x1 rLo) (View.ld x1 rHi) (View.ld x5 rRow) (View.ld x4 rRow) (View.ld x3 rW)) (k0_pay6 i (View.ld x0 rLo) (View.ld x0 rHi) (View.ld x1 rLo) (View.ld x1 rHi) (View.ld x5 rRow) (View.ld x4 rRow) (View.ld x3 rW)) (k0_pay8 i (View.ld x0 rLo) (View.ld x0 rHi) (View.ld x1 rLo) (View.ld x1 rHi) (View.ld x5 rRow) (View.ld x4 rRow) (View.ld x3 rW)) (Scalar.ofBits .f32 0x3F000000#32)⟩]

/-- The new hidden state's block, likewise. -/
def hiddenBlock (i : grid0.Coords) (x0 x1 x2 : Vec F S64x2048 .f32) (x3 : Vec F S4096x4096 .bf16) (x4 x5 : Vec F S1x4096 .f32) : Vec F S64x1024 .f32 :=
  View.canon [⟨rOut, k0_pay2 (k0_pay3 i (View.ld x2 rHi) (View.ld x2 rLo)) (k0_pay5 i (View.ld x0 rLo) (View.ld x0 rHi) (View.ld x1 rLo) (View.ld x1 rHi) (View.ld x5 rRow) (View.ld x4 rRow) (View.ld x3 rW)) (k0_pay6 i (View.ld x0 rLo) (View.ld x0 rHi) (View.ld x1 rLo) (View.ld x1 rHi) (View.ld x5 rRow) (View.ld x4 rRow) (View.ld x3 rW)) (k0_pay7 i (View.ld x0 rLo) (View.ld x0 rHi) (View.ld x1 rLo) (View.ld x1 rHi) (View.ld x5 rRow) (View.ld x4 rRow) (View.ld x3 rW)) (k0_pay8 i (View.ld x0 rLo) (View.ld x0 rHi) (View.ld x1 rLo) (View.ld x1 rHi) (View.ld x5 rRow) (View.ld x4 rRow) (View.ld x3 rW)) (Scalar.ofBits .f32 0x3F000000#32)⟩]

/-- One store of the whole block covers the buffer. -/
theorem cover_out (p0 : Vec F S64x1024 .f32) (y : S64x1024.Idx) :
    ∃ pc ∈ ([⟨rOut, p0⟩] : List (View.Piece (Elt F) S64x1024 .f32)), y ∈ pc.1.set :=
  View.cover_of_tiled [⟨rOut, p0⟩] S64x1024.size (by rfl) y

/-! ## The body's triple -/

set_option maxHeartbeats 4000000 in
/-- The kernel body on whole staging memrefs — the six inputs' at contents `x0 … x5`, the two outputs' at anything —
    runs to the continuation holding the inputs' as they were, the hidden state's buffer at `hiddenBlock` and the
    cell state's at `cellBlock` of the inputs'. -/
theorem sound_kernel (c : Dev nD) (E : Set ℕ) (i : grid0.Coords)
    (arg2 : Memref sig .tc .vmem S64x2048 .f32) (harg2 : arg2.IsWhole) (arg3 : Memref sig .tc .vmem S64x2048 .f32) (harg3 : arg3.IsWhole)
    (arg4 : Memref sig .tc .vmem S64x2048 .f32) (harg4 : arg4.IsWhole) (arg5 : Memref sig .tc .vmem S4096x4096 .bf16) (harg5 : arg5.IsWhole)
    (arg6 : Memref sig .tc .vmem S1x4096 .f32) (harg6 : arg6.IsWhole) (arg7 : Memref sig .tc .vmem S1x4096 .f32) (harg7 : arg7.IsWhole)
    (arg8 : Memref sig .tc .vmem S64x1024 .f32) (harg8 : arg8.IsWhole) (arg9 : Memref sig .tc .vmem S64x1024 .f32) (harg9 : arg9.IsWhole)
    (x0 x1 x2 : Vec F S64x2048 .f32) (x3 : Vec F S4096x4096 .bf16) (x4 x5 : Vec F S1x4096 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ owns (c : Thread nD τ) arg7 fullShare x5
        ∗ (∃ d, owns (c : Thread nD τ) arg8 fullShare d) ∗ (∃ d, owns (c : Thread nD τ) arg9 fullShare d)
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4 ∗ owns (c : Thread nD τ) arg7 fullShare x5
            ∗ owns (c : Thread nD τ) arg8 fullShare (hiddenBlock i x0 x1 x2 x3 x4 x5) ∗ owns (c : Thread nD τ) arg9 fullShare (cellBlock i x0 x1 x2 x3 x4 x5)) -∗ K ⟨⟩))
      ⊢ wp frame (wpE (defs₀ (F := F)) Variants.none c none) E (cc0__clstm_kernel i arg2 harg2 arg3 harg3 arg4 harg4 arg5 harg5 arg6 harg6 arg7 harg7 arg8 harg8 arg9 harg9) K := by
  simp only [cc0__clstm_kernel_eq_skeleton]; unfold cc0__clstm_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    exact View.read_writes_eq_canon _ _ _ (cover_out _)
  iexists _; isplitr
  swap; · iexact H7
  ipureintro
  exact View.read_writes_eq_canon _ _ _ (cover_out _)

/-! ## The pipeline's proof data -/

/-- The proof data of the pipeline on core `c`: the arrays as the region finds them; after the body at point `t`
    each input's buffer at its block, the hidden state's at `hiddenBlock` and the cell state's at `cellBlock` of
    the point's input blocks; the plain invariant; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => hiddenBlock (grid0.coords t) (iblk m c 0 t) (iblk m c 1 t) (iblk m c 2 t) (iblk m c 3 t) (iblk m c 4 t) (iblk m c 5 t)
    | ⟨7, _⟩ => cellBlock (grid0.coords t) (iblk m c 0 t) (iblk m c 1 t) (iblk m c 2 t) (iblk m c 3 t) (iblk m c 4 t) (iblk m c 5 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = hiddenBlock (grid0.coords t) (iblk m c 0 t) (iblk m c 1 t) (iblk m c 2 t) (iblk m c 3 t) (iblk m c 4 t) (iblk m c 5 t) := by dsimp only [dats]
theorem after7 (c : Dev nD) (t : Fin cfg0.N) : (dats m 0 c).after 7 t = cellBlock (grid0.coords t) (iblk m c 0 t) (iblk m c 1 t) (iblk m c 2 t) (iblk m c 3 t) (iblk m c 4 t) (iblk m c 5 t) := by dsimp only [dats]

theorem before0 (c : Dev nD) (t : Fin cfg0.N) (d) : (dats m 0 c).before 0 t d = iblk m c 0 t :=
  before_in0_of m (dats m 0 c) (A_eq m c 0) (after0 m c) t d
theorem before1 (c : Dev nD) (t : Fin cfg0.N) (d) : (dats m 0 c).before 1 t d = iblk m c 1 t :=
  before_in1_of m (dats m 0 c) (A_eq m c 1) (after1 m c) t d
theorem before2 (c : Dev nD) (t : Fin cfg0.N) (d) : (dats m 0 c).before 2 t d = iblk m c 2 t :=
  before_in2_of m (dats m 0 c) (A_eq m c 2) (after2 m c) t d
theorem before3 (c : Dev nD) (t : Fin cfg0.N) (d) : (dats m 0 c).before 3 t d = iblk m c 3 t :=
  before_in3_of m (dats m 0 c) (A_eq m c 3) (after3 m c) t d
theorem before4 (c : Dev nD) (t : Fin cfg0.N) (d) : (dats m 0 c).before 4 t d = iblk m c 4 t :=
  before_in4_of m (dats m 0 c) (A_eq m c 4) (after4 m c) t d
theorem before5 (c : Dev nD) (t : Fin cfg0.N) (d) : (dats m 0 c).before 5 t d = iblk m c 5 t :=
  before_in5_of m (dats m 0 c) (A_eq m c 5) (after5 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t))

/-- The body at any point: the inputs' memrefs hold their blocks, so `sound_kernel` applies; the invariant and
    the core's debts pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5]
  rw [show (dats m 0 c).Φ t.succ = (dats m 0 c).Φ t.castSucc from rfl,
    show (dats m 0 c).owesAt () t.succ = (dats m 0 c).owesAt () t.castSucc from rfl,
    after0, after1, after2, after3, after4, after5, after6, after7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel c Set.univ (grid0.coords t) _ _ _ _ _ _ _ _ _ _ _ _ _ _ _ _ (iblk m c 0 t) (iblk m c 1 t) (iblk m c 2 t) (iblk m c 3 t) (iblk m c 4 t) (iblk m c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The launch theorem's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters every weakly fair execution of @main terminates without a fault, every array
    of the pipeline ends at what the proof data says (an input at its entry contents, an output at those overwritten
    block by block by what the body left) and every other unscoped buffer as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame: @main terminates, faults nowhere, and leaves its nine argument arrays unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  frame_of m ρ (dats m) (A_eq m) (run_main m ρ)

end Cert.Kernel.Hand

end
-- ==== Proof.FrameIdeal.lean ====
/-
  The frame of `KernelIdeal`: @main runs to its end, nothing faults, and the nine argument arrays end as they began.

  @main is seven host operations (four changes of float format, the stacking of the four weight matrices along the
  contracted axis, two reshapes of the bias vectors to rows), then ONE region over the grid 2 × 64 (half, batch tile).
  At a grid point the body reads the left and right halves (real and imaginary parts) of the point's 64-row blocks of
  the input and of the two states, the whole stacked weight matrix and the two bias rows, and stores one 64 × 1024
  block of the new cell state and one of the new hidden state, each covering its staging buffer whole. So what each
  output buffer holds after the body is a function of the input blocks alone (`cellBlock`, `hiddenBlock`), every
  input buffer is left as found, and the region's launch theorem applies with the plain invariant (the scoped rest
  and the generator register untouched). The host operations write only their own results, so every argument array
  is found by the region as launched and is an input of it or untouched by it.
  Stated at any float instance `F`.
-/
import proofs.«110221_j51677046505499_2_alg».proof.Proof.Gen.KernelIdeal.Launch
import proofs.«110221_j51677046505499_2_alg».proof.Proof.Gen.KernelIdeal.Skeleton
import proofs.«110221_j51677046505499_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- Core `c`'s buffers when the region is entered: the launch contents after the seven host operations. -/
abbrev V (c : Dev nD) (b : Ref sig .tc) : Buf (Elt F) ((c : Thread nD τ).loc b) :=
  StableHlo.after hostOps0 (fun b => m (c, b)) b

/-- No host operation allocates. -/
theorem hostOps0_fresh : (hostOps0 : List (HloOp τ sig (Elt F))).Forall fun op => op.fresh = ∅ := by
  simp only [List.Forall]; repeat' constructor

/-- @main is the host operations, then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- A buffer that is the result of no host operation is found by the region as launched. -/
theorem V_of_not_result (c : Dev nD) (b : Ref sig .tc)
    (h0 : b ≠ main_v0) (h1 : b ≠ main_v1) (h2 : b ≠ main_v2) (h3 : b ≠ main_v3) (h4 : b ≠ main_v4) (h5 : b ≠ main_v5) (h6 : b ≠ main_v6) :
    V m c b = m ((c : Thread nD τ).loc b) :=
  StableHlo.after_of_forall_not_mem (b := Proc.devRef .tc b) _ _ (List.forall_iff_forall_mem.mp (by
    simp only [hostOps0, List.Forall, StableHlo.unary_writes, StableHlo.nary_writes, StableHlo.reshape_writes, Finset.mem_singleton]
    exact ⟨StableHlo.devRef_ne_of_ne h0, StableHlo.devRef_ne_of_ne h1, StableHlo.devRef_ne_of_ne h2, StableHlo.devRef_ne_of_ne h3,
      StableHlo.devRef_ne_of_ne h4, StableHlo.devRef_ne_of_ne h5, StableHlo.devRef_ne_of_ne h6⟩))

theorem V_main_arg0 (c : Dev nD) : V m c main_arg0 = m ((c : Thread nD τ).loc main_arg0) :=
  V_of_not_result m c _ (by decide) (by decide) (by decide) (by decide) (by decide) (by decide) (by decide)
theorem V_main_arg1 (c : Dev nD) : V m c main_arg1 = m ((c : Thread nD τ).loc main_arg1) :=
  V_of_not_result m c _ (by decide) (by decide) (by decide) (by decide) (by decide) (by decide) (by decide)
theorem V_main_arg2 (c : Dev nD) : V m c main_arg2 = m ((c : Thread nD τ).loc main_arg2) :=
  V_of_not_result m c _ (by decide) (by decide) (by decide) (by decide) (by decide) (by decide) (by decide)
theorem V_main_arg3 (c : Dev nD) : V m c main_arg3 = m ((c : Thread nD τ).loc main_arg3) :=
  V_of_not_result m c _ (by decide) (by decide) (by decide) (by decide) (by decide) (by decide) (by decide)
theorem V_main_arg4 (c : Dev nD) : V m c main_arg4 = m ((c : Thread nD τ).loc main_arg4) :=
  V_of_not_result m c _ (by decide) (by decide) (by decide) (by decide) (by decide) (by decide) (by decide)
theorem V_main_arg5 (c : Dev nD) : V m c main_arg5 = m ((c : Thread nD τ).loc main_arg5) :=
  V_of_not_result m c _ (by decide) (by decide) (by decide) (by decide) (by decide) (by decide) (by decide)
theorem V_main_arg6 (c : Dev nD) : V m c main_arg6 = m ((c : Thread nD τ).loc main_arg6) :=
  V_of_not_result m c _ (by decide) (by decide) (by decide) (by decide) (by decide) (by decide) (by decide)
theorem V_main_arg7 (c : Dev nD) : V m c main_arg7 = m ((c : Thread nD τ).loc main_arg7) :=
  V_of_not_result m c _ (by decide) (by decide) (by decide) (by decide) (by decide) (by decide) (by decide)
theorem V_main_arg8 (c : Dev nD) : V m c main_arg8 = m ((c : Thread nD τ).loc main_arg8) :=
  V_of_not_result m c _ (by decide) (by decide) (by decide) (by decide) (by decide) (by decide) (by decide)

/-! ## The windows' blocks -/

/-- Window `w`'s block at grid point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! An input window's current staging buffer holds its block at every point, whether the point fetches it or its
    block index has not moved since the last fetch (the weights and the bias rows are fetched once): the window is
    whole-block, never idle, and the body leaves it in place. -/

theorem before_in0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

theorem before_in1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

theorem before_in2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

theorem before_in3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

theorem before_in4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

theorem before_in5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the launch theorem's -/

/-- The launch theorem's post read at the nine argument arrays: the input, the two states are arrays of input
    windows (their final contents are their entry contents), the four weight matrices and the two bias vectors are
    staged by no window (the region leaves them as found); and the region found each as launched. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c => ⟨((h c).1 0).trans (((dats 0 c).arrAt_in 0 rfl _).trans ((hA c 0).trans (V_main_arg0 m c))),
      ((h c).1 1).trans (((dats 0 c).arrAt_in 1 rfl _).trans ((hA c 1).trans (V_main_arg1 m c))),
      ((h c).1 2).trans (((dats 0 c).arrAt_in 2 rfl _).trans ((hA c 2).trans (V_main_arg2 m c))),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c)⟩) h

/-! ## The body's accesses -/

/-- The left half (real part) of a 64 × 2048 block. -/
abbrev rLo : Rect S64x2048 := Rect.unit (s := S64x2048) ![0, 0] S64x1024.size inb_S64x2048_S64x1024_0_0
/-- The right half (imaginary part) of a 64 × 2048 block. -/
abbrev rHi : Rect S64x2048 := Rect.unit (s := S64x2048) ![0, 1024] S64x1024.size inb_S64x2048_S64x1024_0_1024
/-- A bias row, whole. -/
abbrev rRow : Rect S1x4096 := Rect.unit (s := S1x4096) ![0, 0] S1x4096.size inb_S1x4096_S1x4096_0_0
/-- The stacked weight matrix, whole. -/
abbrev rW : Rect S4096x4096 := Rect.unit (s := S4096x4096) ![0, 0] S4096x4096.size inb_S4096x4096_S4096x4096_0_0
/-- An output block, whole. -/
abbrev rOut : Rect S64x1024 := Rect.unit (s := S64x1024) ![0, 0] S64x1024.size inb_S64x1024_S64x1024_0_0

/-! ## What the body leaves in each output window's buffer -/

/-- The new cell state's block at grid coordinates `i`, from the input blocks: the input `x0`, the hidden state
    `x1`, the cell state `x2`, the stacked weights `x3`, the real and imaginary bias rows `x4`, `x5`. -/
def cellBlock (i : grid0.Coords) (x0 x1 x2 : Vec F S64x2048 .f32) (x3 : Vec F S4096x4096 .bf16) (x4 x5 : Vec F S1x4096 .f32) : Vec F S64x1024 .f32 :=
  View.canon [⟨rOut, k0_pay1 (k0_pay3 i (View.ld x2 rHi) (View.ld x2 rLo)) (k0_pay5 i (View.ld x0 rLo) (View.ld x0 rHi) (View.ld x1 rLo) (View.ld x1 rHi) (View.ld x5 rRow) (View.ld x4 rRow) (View.ld x3 rW)) (k0_pay6 i (View.ld x0 rLo) (View.ld x0 rHi) (View.ld x1 rLo) (View.ld x1 rHi) (View.ld x5 rRow) (View.ld x4 rRow) (View.ld x3 rW)) (k0_pay8 i (View.ld x0 rLo) (View.ld x0 rHi) (View.ld x1 rLo) (View.ld x1 rHi) (View.ld x5 rRow) (View.ld x4 rRow) (View.ld x3 rW)) (Scalar.ofBits .f32 0x3F000000#32)⟩]

/-- The new hidden state's block, likewise. -/
def hiddenBlock (i : grid0.Coords) (x0 x1 x2 : Vec F S64x2048 .f32) (x3 : Vec F S4096x4096 .bf16) (x4 x5 : Vec F S1x4096 .f32) : Vec F S64x1024 .f32 :=
  View.canon [⟨rOut, k0_pay2 (k0_pay3 i (View.ld x2 rHi) (View.ld x2 rLo)) (k0_pay5 i (View.ld x0 rLo) (View.ld x0 rHi) (View.ld x1 rLo) (View.ld x1 rHi) (View.ld x5 rRow) (View.ld x4 rRow) (View.ld x3 rW)) (k0_pay6 i (View.ld x0 rLo) (View.ld x0 rHi) (View.ld x1 rLo) (View.ld x1 rHi) (View.ld x5 rRow) (View.ld x4 rRow) (View.ld x3 rW)) (k0_pay7 i (View.ld x0 rLo) (View.ld x0 rHi) (View.ld x1 rLo) (View.ld x1 rHi) (View.ld x5 rRow) (View.ld x4 rRow) (View.ld x3 rW)) (k0_pay8 i (View.ld x0 rLo) (View.ld x0 rHi) (View.ld x1 rLo) (View.ld x1 rHi) (View.ld x5 rRow) (View.ld x4 rRow) (View.ld x3 rW)) (Scalar.ofBits .f32 0x3F000000#32)⟩]

/-- One store of the whole block covers the buffer. -/
theorem cover_out (p0 : Vec F S64x1024 .f32) (y : S64x1024.Idx) :
    ∃ pc ∈ ([⟨rOut, p0⟩] : List (View.Piece (Elt F) S64x1024 .f32)), y ∈ pc.1.set :=
  View.cover_of_tiled [⟨rOut, p0⟩] S64x1024.size (by rfl) y

/-! ## The body's triple -/

set_option maxHeartbeats 4000000 in
/-- The kernel body on whole staging memrefs — the six inputs' at contents `x0 … x5`, the two outputs' at anything —
    runs to the continuation holding the inputs' as they were, the hidden state's buffer at `hiddenBlock` and the
    cell state's at `cellBlock` of the inputs'. -/
theorem sound_kernel (c : Dev nD) (E : Set ℕ) (i : grid0.Coords)
    (arg2 : Memref sig .tc .vmem S64x2048 .f32) (harg2 : arg2.IsWhole) (arg3 : Memref sig .tc .vmem S64x2048 .f32) (harg3 : arg3.IsWhole)
    (arg4 : Memref sig .tc .vmem S64x2048 .f32) (harg4 : arg4.IsWhole) (arg5 : Memref sig .tc .vmem S4096x4096 .bf16) (harg5 : arg5.IsWhole)
    (arg6 : Memref sig .tc .vmem S1x4096 .f32) (harg6 : arg6.IsWhole) (arg7 : Memref sig .tc .vmem S1x4096 .f32) (harg7 : arg7.IsWhole)
    (arg8 : Memref sig .tc .vmem S64x1024 .f32) (harg8 : arg8.IsWhole) (arg9 : Memref sig .tc .vmem S64x1024 .f32) (harg9 : arg9.IsWhole)
    (x0 x1 x2 : Vec F S64x2048 .f32) (x3 : Vec F S4096x4096 .bf16) (x4 x5 : Vec F S1x4096 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ owns (c : Thread nD τ) arg7 fullShare x5
        ∗ (∃ d, owns (c : Thread nD τ) arg8 fullShare d) ∗ (∃ d, owns (c : Thread nD τ) arg9 fullShare d)
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4 ∗ owns (c : Thread nD τ) arg7 fullShare x5
            ∗ owns (c : Thread nD τ) arg8 fullShare (hiddenBlock i x0 x1 x2 x3 x4 x5) ∗ owns (c : Thread nD τ) arg9 fullShare (cellBlock i x0 x1 x2 x3 x4 x5)) -∗ K ⟨⟩))
      ⊢ wp frame (wpE (defs₀ (F := F)) Variants.none c none) E (cc0__clstm_kernel i arg2 harg2 arg3 harg3 arg4 harg4 arg5 harg5 arg6 harg6 arg7 harg7 arg8 harg8 arg9 harg9) K := by
  simp only [cc0__clstm_kernel_eq_skeleton]; unfold cc0__clstm_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    exact View.read_writes_eq_canon _ _ _ (cover_out _)
  iexists _; isplitr
  swap; · iexact H7
  ipureintro
  exact View.read_writes_eq_canon _ _ _ (cover_out _)

/-! ## The pipeline's proof data -/

/-- The proof data of the pipeline on core `c`: the arrays as the region finds them; after the body at point `t`
    each input's buffer at its block, the hidden state's at `hiddenBlock` and the cell state's at `cellBlock` of
    the point's input blocks; the plain invariant; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => hiddenBlock (grid0.coords t) (iblk m c 0 t) (iblk m c 1 t) (iblk m c 2 t) (iblk m c 3 t) (iblk m c 4 t) (iblk m c 5 t)
    | ⟨7, _⟩ => cellBlock (grid0.coords t) (iblk m c 0 t) (iblk m c 1 t) (iblk m c 2 t) (iblk m c 3 t) (iblk m c 4 t) (iblk m c 5 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = hiddenBlock (grid0.coords t) (iblk m c 0 t) (iblk m c 1 t) (iblk m c 2 t) (iblk m c 3 t) (iblk m c 4 t) (iblk m c 5 t) := by dsimp only [dats]
theorem after7 (c : Dev nD) (t : Fin cfg0.N) : (dats m 0 c).after 7 t = cellBlock (grid0.coords t) (iblk m c 0 t) (iblk m c 1 t) (iblk m c 2 t) (iblk m c 3 t) (iblk m c 4 t) (iblk m c 5 t) := by dsimp only [dats]

theorem before0 (c : Dev nD) (t : Fin cfg0.N) (d) : (dats m 0 c).before 0 t d = iblk m c 0 t :=
  before_in0_of m (dats m 0 c) (A_eq m c 0) (after0 m c) t d
theorem before1 (c : Dev nD) (t : Fin cfg0.N) (d) : (dats m 0 c).before 1 t d = iblk m c 1 t :=
  before_in1_of m (dats m 0 c) (A_eq m c 1) (after1 m c) t d
theorem before2 (c : Dev nD) (t : Fin cfg0.N) (d) : (dats m 0 c).before 2 t d = iblk m c 2 t :=
  before_in2_of m (dats m 0 c) (A_eq m c 2) (after2 m c) t d
theorem before3 (c : Dev nD) (t : Fin cfg0.N) (d) : (dats m 0 c).before 3 t d = iblk m c 3 t :=
  before_in3_of m (dats m 0 c) (A_eq m c 3) (after3 m c) t d
theorem before4 (c : Dev nD) (t : Fin cfg0.N) (d) : (dats m 0 c).before 4 t d = iblk m c 4 t :=
  before_in4_of m (dats m 0 c) (A_eq m c 4) (after4 m c) t d
theorem before5 (c : Dev nD) (t : Fin cfg0.N) (d) : (dats m 0 c).before 5 t d = iblk m c 5 t :=
  before_in5_of m (dats m 0 c) (A_eq m c 5) (after5 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t))

/-- The body at any point: the inputs' memrefs hold their blocks, so `sound_kernel` applies; the invariant and
    the core's debts pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5]
  rw [show (dats m 0 c).Φ t.succ = (dats m 0 c).Φ t.castSucc from rfl,
    show (dats m 0 c).owesAt () t.succ = (dats m 0 c).owesAt () t.castSucc from rfl,
    after0, after1, after2, after3, after4, after5, after6, after7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel c Set.univ (grid0.coords t) _ _ _ _ _ _ _ _ _ _ _ _ _ _ _ _ (iblk m c 0 t) (iblk m c 1 t) (iblk m c 2 t) (iblk m c 3 t) (iblk m c 4 t) (iblk m c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The launch theorem's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters every weakly fair execution of @main terminates without a fault, every array
    of the pipeline ends at what the proof data says (an input at its entry contents, an output at those overwritten
    block by block by what the body left) and every other unscoped buffer as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame: @main terminates, faults nowhere, and leaves its nine argument arrays unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  frame_of m ρ (dats m) (A_eq m) (run_main m ρ)

end Cert.KernelIdeal.Hand

end
-- ==== Proof.Spec.lean ====
/-
  The complex LSTM cell as ONE function of the nine argument arrays, index by index, over the extended reals.

  A row of the input holds its real part in columns 0 … 1023 and its imaginary part in columns 1024 … 2047; so do
  the rows of the two states. With `x = xr + i·xi`, `h = hr + i·hi` and the weights `R + i·I`, `Rr + i·Ir`, the four
  gates' pre-activations are
      real:       xr·R + xi·I + hr·Rr + hi·Ir + br
      imaginary:  xi·R − xr·I + hi·Rr − hr·Ir + bi
  (4096 columns each: gate `g` is columns `1024 g … 1024 g + 1023`, in the order input, forget, candidate, output). Column `j` of a result row belongs to the real
  half when `j < 1024` and to the imaginary half otherwise, at unit `u = j` or `u = j − 1024`; there
      c' = σ(z[1024 + u]) · c + σ(z[u]) · tanh z[2048 + u],      h' = σ(z[3072 + u]) · tanh c'
  with `σ(t) = min 1 (max 0 (0.2 t + 0.5))` and `z` the half's pre-activation row.

  Two facts about finite sums in the extended reals are proved here as well: a sum over 4096 terms is the sum of its
  four consecutive quarters (addition is commutative and associative at infinities too), and a sum of products
  whose left factors are negated is the negated sum WHEN the factors are real (the negation of a sum is the sum of
  the negations only away from `⊤ + ⊥`).
-/
import Idealize.ShloMosaic.PureOps.Ideal
import Idealize.ShloMosaic.Lib.ValueIdx

noncomputable section

open scoped BigOperators

namespace Cert.CLstm

open Idealize.ShloMosaic Idealize.ShloMosaic.ValueIdx

/-- A matrix of extended reals. -/
abbrev Mat (r c : Nat) : Type := (⟨2, ![r, c]⟩ : Shape).Idx → EReal
/-- A vector of extended reals. -/
abbrev Vc (n : Nat) : Type := (⟨1, ![n]⟩ : Shape).Idx → EReal

/-- Column `k` of the real part. -/
abbrev lo (k : Fin 1024) : Fin 2048 := ⟨k.val, by have := k.isLt; omega⟩
/-- Column `k` of the imaginary part. -/
abbrev hi (k : Fin 1024) : Fin 2048 := ⟨1024 + k.val, by have := k.isLt; omega⟩

/-- Row `b` of the real part of `x` against column `n` of `w`. -/
def dotRe (x : Mat 4096 2048) (w : Mat 1024 4096) (b n : Fin 4096) : EReal := ∑ k : Fin 1024, x (ix2 b (lo k)) * w (ix2 k n)
/-- Row `b` of the imaginary part of `x` against column `n` of `w`. -/
def dotIm (x : Mat 4096 2048) (w : Mat 1024 4096) (b n : Fin 4096) : EReal := ∑ k : Fin 1024, x (ix2 b (hi k)) * w (ix2 k n)

/-- The real half of the pre-activations. -/
def preRe (x h : Mat 4096 2048) (R I Rr Ir : Mat 1024 4096) (br : Vc 4096) (b n : Fin 4096) : EReal :=
  dotRe x R b n + dotIm x I b n + dotRe h Rr b n + dotIm h Ir b n + br (ix1 n)
/-- The imaginary half of the pre-activations. -/
def preIm (x h : Mat 4096 2048) (R I Rr Ir : Mat 1024 4096) (bi : Vc 4096) (b n : Fin 4096) : EReal :=
  dotIm x R b n - dotRe x I b n + dotIm h Rr b n - dotRe h Ir b n + bi (ix1 n)

/-- The hard sigmoid `min 1 (max 0 (0.2 t + 0.5))`, its four constants the binary values both programs spell. -/
def hsig (t : EReal) : EReal :=
  min (Ideal.ofBits .f32 0x3F800000#32) (max (Ideal.ofBits .f32 0x00000000#32) (Ideal.ofBits .f32 0x3E4CCCCD#32 * t + Ideal.ofBits .f32 0x3F000000#32))

/-- The new cell state from the input, forget and candidate pre-activations and the old cell state. -/
def cellOf (zi zf zg c : EReal) : EReal := hsig zf * c + hsig zi * Ideal.tanh zg
/-- The new hidden state from the output pre-activation and the new cell state. -/
def hidOf (zo c' : EReal) : EReal := hsig zo * Ideal.tanh c'

/-- The column of unit `u` in the gate whose columns start at `off` (0, 1024, 2048, 3072: input, forget, candidate,
    output). -/
abbrev gcol (off : Nat) (u : Fin 1024) (h : off ≤ 3072 := by omega) : Fin 4096 := ⟨off + u.val, by have := u.isLt; omega⟩

/-- The new cell state at row `b`, unit `u`, from a pre-activation row `z` and the old cell state there. -/
def cellAt (z : Fin 4096 → EReal) (c : EReal) (u : Fin 1024) : EReal := cellOf (z (gcol 0 u)) (z (gcol 1024 u)) (z (gcol 2048 u)) c
/-- The new hidden state there. -/
def hidAt (z : Fin 4096 → EReal) (c : EReal) (u : Fin 1024) : EReal := hidOf (z (gcol 3072 u)) (cellAt z c u)

/-- THE NEW CELL STATE, whole: the real half in columns below 1024, the imaginary half from 1024 on. -/
def cellG (x h c : Mat 4096 2048) (R I Rr Ir : Mat 1024 4096) (br bi : Vc 4096) : Mat 4096 2048 := fun j =>
  if hj : (j 1).val < 1024 then cellAt (preRe x h R I Rr Ir br (j 0)) (c j) ⟨(j 1).val, hj⟩
  else cellAt (preIm x h R I Rr Ir bi (j 0)) (c j) ⟨(j 1).val - 1024, by have := idx2_lt1 j; omega⟩
/-- THE NEW HIDDEN STATE, whole. -/
def hidG (x h c : Mat 4096 2048) (R I Rr Ir : Mat 1024 4096) (br bi : Vc 4096) : Mat 4096 2048 := fun j =>
  if hj : (j 1).val < 1024 then hidAt (preRe x h R I Rr Ir br (j 0)) (c j) ⟨(j 1).val, hj⟩
  else hidAt (preIm x h R I Rr Ir bi (j 0)) (c j) ⟨(j 1).val - 1024, by have := idx2_lt1 j; omega⟩

/-! ## The results read at a column of the real half and of the imaginary half -/

theorem cellG_re (x h c : Mat 4096 2048) (R I Rr Ir : Mat 1024 4096) (br bi : Vc 4096) (b : Fin 4096) (u : Fin 1024) :
    cellG x h c R I Rr Ir br bi (ix2 b (lo u)) = cellAt (preRe x h R I Rr Ir br b) (c (ix2 b (lo u))) u := by
  unfold cellG
  rw [dif_pos (show ((ix2 b (lo u) : (⟨2, ![4096, 2048]⟩ : Shape).Idx) 1).val < 1024 from u.isLt)]
theorem cellG_im (x h c : Mat 4096 2048) (R I Rr Ir : Mat 1024 4096) (br bi : Vc 4096) (b : Fin 4096) (u : Fin 1024) :
    cellG x h c R I Rr Ir br bi (ix2 b (hi u)) = cellAt (preIm x h R I Rr Ir bi b) (c (ix2 b (hi u))) u := by
  unfold cellG
  rw [dif_neg (show ¬ ((ix2 b (hi u) : (⟨2, ![4096, 2048]⟩ : Shape).Idx) 1).val < 1024 by show ¬ (1024 + u.val < 1024); omega)]
  congr 1
  exact Fin.ext (by show 1024 + u.val - 1024 = u.val; omega)
theorem hidG_re (x h c : Mat 4096 2048) (R I Rr Ir : Mat 1024 4096) (br bi : Vc 4096) (b : Fin 4096) (u : Fin 1024) :
    hidG x h c R I Rr Ir br bi (ix2 b (lo u)) = hidAt (preRe x h R I Rr Ir br b) (c (ix2 b (lo u))) u := by
  unfold hidG
  rw [dif_pos (show ((ix2 b (lo u) : (⟨2, ![4096, 2048]⟩ : Shape).Idx) 1).val < 1024 from u.isLt)]
theorem hidG_im (x h c : Mat 4096 2048) (R I Rr Ir : Mat 1024 4096) (br bi : Vc 4096) (b : Fin 4096) (u : Fin 1024) :
    hidG x h c R I Rr Ir br bi (ix2 b (hi u)) = hidAt (preIm x h R I Rr Ir bi b) (c (ix2 b (hi u))) u := by
  unfold hidG
  rw [dif_neg (show ¬ ((ix2 b (hi u) : (⟨2, ![4096, 2048]⟩ : Shape).Idx) 1).val < 1024 by show ¬ (1024 + u.val < 1024); omega)]
  congr 1
  exact Fin.ext (by show 1024 + u.val - 1024 = u.val; omega)

/-! ## Two facts about finite sums -/

/-- A sum over 4096 terms is the sum of its four consecutive quarters, in any commutative monoid. -/
theorem sum_quarters {M : Type} [AddCommMonoid M] (f : Fin 4096 → M) :
    ∑ k : Fin 4096, f k = (∑ k : Fin 1024, f ⟨k.val, by have := k.isLt; omega⟩) + (∑ k : Fin 1024, f ⟨1024 + k.val, by have := k.isLt; omega⟩)
      + (∑ k : Fin 1024, f ⟨2048 + k.val, by have := k.isLt; omega⟩) + (∑ k : Fin 1024, f ⟨3072 + k.val, by have := k.isLt; omega⟩) := by
  have h1 := Fin.sum_univ_add (a := 2048) (b := 2048) (f := (f : Fin (2048 + 2048) → M))
  have h2 := Fin.sum_univ_add (a := 1024) (b := 1024) (f := fun i : Fin (1024 + 1024) => f (Fin.castAdd 2048 i))
  have h3 := Fin.sum_univ_add (a := 1024) (b := 1024) (f := fun i : Fin (1024 + 1024) => f (Fin.natAdd 2048 i))
  refine h1.trans ?_
  rw [show (∑ i : Fin 2048, f (Fin.castAdd 2048 i)) = _ from h2, show (∑ i : Fin 2048, f (Fin.natAdd 2048 i)) = _ from h3, ← add_assoc]
  rfl

/-- The coercion of a real sum. -/
theorem coe_sum {ι : Type} (s : Finset ι) (f : ι → ℝ) : ((∑ k ∈ s, f k : ℝ) : EReal) = ∑ k ∈ s, (f k : EReal) := by
  classical
  induction s using Finset.induction_on with
  | empty => simp
  | insert a s ha ih => rw [Finset.sum_insert ha, Finset.sum_insert ha, EReal.coe_add, ih]

/-- A sum of products whose left factors are negated (`0 − a`) is the negated sum, when the factors are real. -/
theorem sum_zero_sub_mul {ι : Type} [Fintype ι] (a w : ι → EReal) (ha : ∀ k, ∃ r : ℝ, a k = r) (hw : ∀ k, ∃ r : ℝ, w k = r) :
    ∑ k, (0 - a k) * w k = -(∑ k, a k * w k) := by
  choose a' ha' using ha
  choose w' hw' using hw
  have e1 : ∀ k, (0 - a k) * w k = ((-(a' k * w' k) : ℝ) : EReal) := fun k => by
    rw [ha', hw', zero_sub, ← EReal.coe_neg, ← EReal.coe_mul, neg_mul]
  have e2 : ∀ k, a k * w k = ((a' k * w' k : ℝ) : EReal) := fun k => by rw [ha', hw', ← EReal.coe_mul]
  rw [Finset.sum_congr rfl (fun k _ => e1 k), Finset.sum_congr rfl (fun k _ => e2 k), ← coe_sum, ← coe_sum, ← EReal.coe_neg,
    Finset.sum_neg_distrib]

end Cert.CLstm

end
-- ==== Proof.LibBands.lean ====
/-
  General lemmas: a matrix assembled from consecutive bands, read at an index.

  A concatenation of two matrices side by side (along the columns) read at an index is the left piece where the
  column falls in it and the right piece, the column less the left width, otherwise; a concatenation of four
  matrices of equal width side by side, or of equal height on top of one another, read at an index whose
  coordinate on the joined axis is `q · width + k` is piece `q` at `k`.
-/
import Idealize.ShloMosaic.Lib.Pipeline.Value
import Idealize.ShloMosaic.Lib.ValueIdx

noncomputable section

namespace Cert.LibBands

open Idealize.ShloMosaic Idealize.ShloMosaic.ValueIdx

variable {α : Type}

/-- Two matrices side by side, read at an index: the left one where the column is below its width, else the right
    one at the column less that width. -/
theorem concat_cols_pair_apply {B n₁ n₂ N : Nat} (a : (⟨2, ![B, n₁]⟩ : Shape).Idx → α) (b : (⟨2, ![B, n₂]⟩ : Shape).Idx → α)
    (h : Shape.Concatenates [(⟨2, ![B, n₁]⟩ : Shape), ⟨2, ![B, n₂]⟩] ⟨2, ![B, N]⟩ 1) (hN : N = n₁ + n₂) (j : (⟨2, ![B, N]⟩ : Shape).Idx) :
    concatenate (⟨2, ![B, N]⟩ : Shape) 1 [⟨⟨2, ![B, n₁]⟩, a⟩, ⟨⟨2, ![B, n₂]⟩, b⟩] h j
      = if hj : (j 1).val < n₁ then a (ix2 (j 0) ⟨(j 1).val, hj⟩)
        else b (ix2 (j 0) ⟨(j 1).val - n₁, by have := idx2_lt1 j; omega⟩) := by
  by_cases hj : (j 1).val < n₁
  · rw [dif_pos hj]
    exact concatenate_pair_apply_left 1 a b h j rfl _ (fun d => match d with | ⟨0, _⟩ => rfl | ⟨1, _⟩ => rfl)
  · rw [dif_neg hj]
    refine concatenate_pair_apply_right 1 a b h j rfl rfl _ (fun d hd => match d, hd with
      | ⟨0, _⟩, _ => rfl
      | ⟨1, _⟩, hd => absurd rfl hd) ?_
    show (j 1).val - n₁ + n₁ = (j 1).val
    omega

/-- Four matrices of equal width `n` side by side, read where the column is `n · q + k`: piece `q` at column `k`. -/
theorem concat4_cols_apply {B n N : Nat} (x₀ x₁ x₂ x₃ : (⟨2, ![B, n]⟩ : Shape).Idx → α)
    (h : Shape.Concatenates [(⟨2, ![B, n]⟩ : Shape), ⟨2, ![B, n]⟩, ⟨2, ![B, n]⟩, ⟨2, ![B, n]⟩] ⟨2, ![B, N]⟩ 1)
    (j : (⟨2, ![B, N]⟩ : Shape).Idx) (p : Fin B) (k : Fin n) (hp : (j 0).val = p.val) :
    ((j 1).val = k.val → concatenate (⟨2, ![B, N]⟩ : Shape) 1 [⟨⟨2, ![B, n]⟩, x₀⟩, ⟨⟨2, ![B, n]⟩, x₁⟩, ⟨⟨2, ![B, n]⟩, x₂⟩, ⟨⟨2, ![B, n]⟩, x₃⟩] h j = x₀ (ix2 p k))
    ∧ ((j 1).val = n + k.val → concatenate (⟨2, ![B, N]⟩ : Shape) 1 [⟨⟨2, ![B, n]⟩, x₀⟩, ⟨⟨2, ![B, n]⟩, x₁⟩, ⟨⟨2, ![B, n]⟩, x₂⟩, ⟨⟨2, ![B, n]⟩, x₃⟩] h j = x₁ (ix2 p k))
    ∧ ((j 1).val = n + n + k.val → concatenate (⟨2, ![B, N]⟩ : Shape) 1 [⟨⟨2, ![B, n]⟩, x₀⟩, ⟨⟨2, ![B, n]⟩, x₁⟩, ⟨⟨2, ![B, n]⟩, x₂⟩, ⟨⟨2, ![B, n]⟩, x₃⟩] h j = x₂ (ix2 p k))
    ∧ ((j 1).val = n + n + n + k.val → concatenate (⟨2, ![B, N]⟩ : Shape) 1 [⟨⟨2, ![B, n]⟩, x₀⟩, ⟨⟨2, ![B, n]⟩, x₁⟩, ⟨⟨2, ![B, n]⟩, x₂⟩, ⟨⟨2, ![B, n]⟩, x₃⟩] h j = x₃ (ix2 p k)) := by
  have hoff : ∀ d : Fin 2, d.cast rfl ≠ (1 : Fin 2) → ((ix2 p k : (⟨2, ![B, n]⟩ : Shape).Idx) d).val = (j (d.cast rfl)).val := fun d hd =>
    match d, hd with
    | ⟨0, _⟩, _ => hp.symm
    | ⟨1, _⟩, hd => absurd rfl hd
  refine ⟨fun e => ?_, fun e => ?_, fun e => ?_, fun e => ?_⟩
  · exact concatenate_apply_piece 1 [⟨⟨2, ![B, n]⟩, x₀⟩, ⟨⟨2, ![B, n]⟩, x₁⟩, ⟨⟨2, ![B, n]⟩, x₂⟩, ⟨⟨2, ![B, n]⟩, x₃⟩] h j 0 (by show 0 < 4; omega) _ x₀ rfl rfl 0 (by simp) (ix2 p k) hoff (by show 0 + k.val = (j 1).val; omega)
  · exact concatenate_apply_piece 1 [⟨⟨2, ![B, n]⟩, x₀⟩, ⟨⟨2, ![B, n]⟩, x₁⟩, ⟨⟨2, ![B, n]⟩, x₂⟩, ⟨⟨2, ![B, n]⟩, x₃⟩] h j 1 (by show 1 < 4; omega) _ x₁ rfl rfl n (by simp) (ix2 p k) hoff (by show n + k.val = (j 1).val; omega)
  · exact concatenate_apply_piece 1 [⟨⟨2, ![B, n]⟩, x₀⟩, ⟨⟨2, ![B, n]⟩, x₁⟩, ⟨⟨2, ![B, n]⟩, x₂⟩, ⟨⟨2, ![B, n]⟩, x₃⟩] h j 2 (by show 2 < 4; omega) _ x₂ rfl rfl (n + n) (by simp) (ix2 p k) hoff (by show n + n + k.val = (j 1).val; omega)
  · exact concatenate_apply_piece 1 [⟨⟨2, ![B, n]⟩, x₀⟩, ⟨⟨2, ![B, n]⟩, x₁⟩, ⟨⟨2, ![B, n]⟩, x₂⟩, ⟨⟨2, ![B, n]⟩, x₃⟩] h j 3 (by show 3 < 4; omega) _ x₃ rfl rfl (n + n + n) (by simp; omega) (ix2 p k) hoff (by show n + n + n + k.val = (j 1).val; omega)

/-- Four matrices of equal height `n` on top of one another, read where the row is `n · q + k`: piece `q` at row `k`. -/
theorem concat4_rows_apply {n C N : Nat} (x₀ x₁ x₂ x₃ : (⟨2, ![n, C]⟩ : Shape).Idx → α)
    (h : Shape.Concatenates [(⟨2, ![n, C]⟩ : Shape), ⟨2, ![n, C]⟩, ⟨2, ![n, C]⟩, ⟨2, ![n, C]⟩] ⟨2, ![N, C]⟩ 0)
    (j : (⟨2, ![N, C]⟩ : Shape).Idx) (k : Fin n) (c : Fin C) (hc : (j 1).val = c.val) :
    ((j 0).val = k.val → concatenate (⟨2, ![N, C]⟩ : Shape) 0 [⟨⟨2, ![n, C]⟩, x₀⟩, ⟨⟨2, ![n, C]⟩, x₁⟩, ⟨⟨2, ![n, C]⟩, x₂⟩, ⟨⟨2, ![n, C]⟩, x₃⟩] h j = x₀ (ix2 k c))
    ∧ ((j 0).val = n + k.val → concatenate (⟨2, ![N, C]⟩ : Shape) 0 [⟨⟨2, ![n, C]⟩, x₀⟩, ⟨⟨2, ![n, C]⟩, x₁⟩, ⟨⟨2, ![n, C]⟩, x₂⟩, ⟨⟨2, ![n, C]⟩, x₃⟩] h j = x₁ (ix2 k c))
    ∧ ((j 0).val = n + n + k.val → concatenate (⟨2, ![N, C]⟩ : Shape) 0 [⟨⟨2, ![n, C]⟩, x₀⟩, ⟨⟨2, ![n, C]⟩, x₁⟩, ⟨⟨2, ![n, C]⟩, x₂⟩, ⟨⟨2, ![n, C]⟩, x₃⟩] h j = x₂ (ix2 k c))
    ∧ ((j 0).val = n + n + n + k.val → concatenate (⟨2, ![N, C]⟩ : Shape) 0 [⟨⟨2, ![n, C]⟩, x₀⟩, ⟨⟨2, ![n, C]⟩, x₁⟩, ⟨⟨2, ![n, C]⟩, x₂⟩, ⟨⟨2, ![n, C]⟩, x₃⟩] h j = x₃ (ix2 k c)) := by
  have hoff : ∀ d : Fin 2, d.cast rfl ≠ (0 : Fin 2) → ((ix2 k c : (⟨2, ![n, C]⟩ : Shape).Idx) d).val = (j (d.cast rfl)).val := fun d hd =>
    match d, hd with
    | ⟨0, _⟩, hd => absurd rfl hd
    | ⟨1, _⟩, _ => hc.symm
  refine ⟨fun e => ?_, fun e => ?_, fun e => ?_, fun e => ?_⟩
  · exact concatenate_apply_piece 0 [⟨⟨2, ![n, C]⟩, x₀⟩, ⟨⟨2, ![n, C]⟩, x₁⟩, ⟨⟨2, ![n, C]⟩, x₂⟩, ⟨⟨2, ![n, C]⟩, x₃⟩] h j 0 (by show 0 < 4; omega) _ x₀ rfl rfl 0 (by simp) (ix2 k c) hoff (by show 0 + k.val = (j 0).val; omega)
  · exact concatenate_apply_piece 0 [⟨⟨2, ![n, C]⟩, x₀⟩, ⟨⟨2, ![n, C]⟩, x₁⟩, ⟨⟨2, ![n, C]⟩, x₂⟩, ⟨⟨2, ![n, C]⟩, x₃⟩] h j 1 (by show 1 < 4; omega) _ x₁ rfl rfl n (by simp) (ix2 k c) hoff (by show n + k.val = (j 0).val; omega)
  · exact concatenate_apply_piece 0 [⟨⟨2, ![n, C]⟩, x₀⟩, ⟨⟨2, ![n, C]⟩, x₁⟩, ⟨⟨2, ![n, C]⟩, x₂⟩, ⟨⟨2, ![n, C]⟩, x₃⟩] h j 2 (by show 2 < 4; omega) _ x₂ rfl rfl (n + n) (by simp) (ix2 k c) hoff (by show n + n + k.val = (j 0).val; omega)
  · exact concatenate_apply_piece 0 [⟨⟨2, ![n, C]⟩, x₀⟩, ⟨⟨2, ![n, C]⟩, x₁⟩, ⟨⟨2, ![n, C]⟩, x₂⟩, ⟨⟨2, ![n, C]⟩, x₃⟩] h j 3 (by show 3 < 4; omega) _ x₃ rfl rfl (n + n + n) (by simp; omega) (ix2 k c) hoff (by show n + n + n + k.val = (j 0).val; omega)

end Cert.LibBands

end
-- ==== Proof.Payload.lean ====
/-
  The kernel's pre-activations, read at an index.

  At each grid point the kernel forms a 64 × 4096 matrix of pre-activations: four 64 × 1024 pieces side by side
  (chosen by the half of the grid: the real half takes xr, xi, hr, hi; the imaginary half takes xi, −xr, hi, −hr,
  a negation spelled `0 − ·`), multiplied into the 4096 × 4096 stacked weights, plus a bias row (the real or the
  imaginary one, again by the half). Over the extended reals the matrix product at row `p`, column `n` is the sum over
  the 4096 contraction positions of the products; split into the four bands of 1024 positions, band `q` meets piece
  `q` and rows `1024 q …` of the weights. That is what the two theorems at the end state, one per half.
-/
import proofs.«110221_j51677046505499_2_alg».proof.Proof.Gen.KernelIdeal.Skeleton
import proofs.«110221_j51677046505499_2_alg».proof.Proof.Spec
import proofs.«110221_j51677046505499_2_alg».proof.Proof.LibBands
import Idealize.ShloMosaic.Lib.Pipeline.Value
import Idealize.ShloMosaic.Lib.ValueIdx
import Idealize.ShloMosaic.PureOps.Ideal.Laws

noncomputable section

open scoped BigOperators

namespace Cert.KernelIdeal.Pay

open Cert.KernelIdeal Cert.KernelIdeal.Gen Cert.CLstm Idealize.ShloMosaic Idealize.ShloMosaic.ValueIdx

/-- The left operand's index of the product at output index `j`, contraction position `q`: its row is `j`'s row. -/
theorem lhs_row (j : S64x4096.Idx) (q : dot_S64x4096_S4096x4096_S64x4096_1_0_0_1_n_n.contr.Idx) :
    (dot_S64x4096_S4096x4096_S64x4096_1_0_0_1_n_n.lhsIdx j q 0).val = (j 0).val := by
  unfold DotDims.lhsIdx
  rw [dif_neg (show ¬(0 : Fin S64x4096.rank) ∈ dot_S64x4096_S4096x4096_S64x4096_1_0_0_1_n_n.lhsBatch by decide),
    dif_pos (show (0 : Fin S64x4096.rank) ∈ dot_S64x4096_S4096x4096_S64x4096_1_0_0_1_n_n.lhsNonContracting by decide)]
  rfl

/-- … and its column is the contraction position. -/
theorem lhs_col (j : S64x4096.Idx) (q : dot_S64x4096_S4096x4096_S64x4096_1_0_0_1_n_n.contr.Idx) :
    (dot_S64x4096_S4096x4096_S64x4096_1_0_0_1_n_n.lhsIdx j q 1).val = (q ⟨0, by decide⟩).val :=
  dot_S64x4096_S4096x4096_S64x4096_1_0_0_1_n_n.lhsIdx_val_of_single rfl j q

/-- The right operand's index: its row is the contraction position … -/
theorem rhs_row (j : S64x4096.Idx) (q : dot_S64x4096_S4096x4096_S64x4096_1_0_0_1_n_n.contr.Idx) :
    (dot_S64x4096_S4096x4096_S64x4096_1_0_0_1_n_n.rhsIdx j q 0).val = (q ⟨0, by decide⟩).val :=
  dot_S64x4096_S4096x4096_S64x4096_1_0_0_1_n_n.rhsIdx_val_of_single rfl j q

/-- … and its column is `j`'s column. -/
theorem rhs_col (j : S64x4096.Idx) (q : dot_S64x4096_S4096x4096_S64x4096_1_0_0_1_n_n.contr.Idx) :
    (dot_S64x4096_S4096x4096_S64x4096_1_0_0_1_n_n.rhsIdx j q 1).val = (j 1).val := by
  unfold DotDims.rhsIdx
  rw [dif_neg (show ¬(1 : Fin S4096x4096.rank) ∈ dot_S64x4096_S4096x4096_S64x4096_1_0_0_1_n_n.rhsBatch by decide),
    dif_pos (show (1 : Fin S4096x4096.rank) ∈ dot_S64x4096_S4096x4096_S64x4096_1_0_0_1_n_n.rhsNonContracting by decide)]
  rfl

/-- The matrix product into the zero accumulator, read at row `p`, column `n`: the sum over `k` of the left operand
    at `(p, k)` times the right operand at `(k, n)`. -/
theorem matmul_at (l : FVec Ideal S64x4096 .bf16) (r : FVec Ideal S4096x4096 .bf16) (p : Fin 64) (n : Fin 4096) :
    matmul (F := Ideal) dot_S64x4096_S4096x4096_S64x4096_1_0_0_1_n_n none l r (constant (F := Ideal) S64x4096 .f32 0x00000000#32) (ix2 p n)
      = ∑ k : Fin 4096, l (ix2 p k) * r (ix2 k n) := by
  simp only [matmul]
  rw [Ideal.matmul_constant_zero_apply, ← Equiv.sum_comp (ValueIdx.contrEquiv1 dot_S64x4096_S4096x4096_S64x4096_1_0_0_1_n_n 4096 rfl rfl).symm]
  refine Finset.sum_congr rfl fun k _ => ?_
  have hk := ValueIdx.contrEquiv1_symm_val dot_S64x4096_S4096x4096_S64x4096_1_0_0_1_n_n 4096 rfl rfl k
  have el : dot_S64x4096_S4096x4096_S64x4096_1_0_0_1_n_n.lhsIdx (ix2 p n) ((ValueIdx.contrEquiv1 dot_S64x4096_S4096x4096_S64x4096_1_0_0_1_n_n 4096 rfl rfl).symm k) = ix2 p k := funext fun a => Fin.ext (by
    match a with
    | ⟨0, _⟩ => exact lhs_row _ _
    | ⟨1, _⟩ => exact (lhs_col _ _).trans hk)
  have er : dot_S64x4096_S4096x4096_S64x4096_1_0_0_1_n_n.rhsIdx (ix2 p n) ((ValueIdx.contrEquiv1 dot_S64x4096_S4096x4096_S64x4096_1_0_0_1_n_n 4096 rfl rfl).symm k) = ix2 k n := funext fun a => Fin.ext (by
    match a with
    | ⟨0, _⟩ => exact (rhs_row _ _).trans hk
    | ⟨1, _⟩ => exact rhs_col _ _)
  rw [el, er]

/-- A sum over the 4096 contraction positions, split into the four bands of 1024 columns. -/
theorem dot_quarters (l : FVec Ideal S64x4096 .bf16) (r : FVec Ideal S4096x4096 .bf16) (p : Fin 64) (n : Fin 4096) :
    ∑ k : Fin 4096, l (ix2 p k) * r (ix2 k n)
      = (∑ k : Fin 1024, l (ix2 p (gcol 0 k)) * r (ix2 (gcol 0 k) n)) + (∑ k : Fin 1024, l (ix2 p (gcol 1024 k)) * r (ix2 (gcol 1024 k) n))
        + (∑ k : Fin 1024, l (ix2 p (gcol 2048 k)) * r (ix2 (gcol 2048 k) n)) + (∑ k : Fin 1024, l (ix2 p (gcol 3072 k)) * r (ix2 (gcol 3072 k) n)) := by
  refine (sum_quarters (fun k : Fin 4096 => l (ix2 p k) * r (ix2 k n))).trans ?_
  refine congrArg₂ (· + ·) (congrArg₂ (· + ·) (congrArg₂ (· + ·) ?_ rfl) rfl) rfl
  refine Finset.sum_congr rfl fun k _ => ?_
  have e : (⟨k.val, by have := k.isLt; omega⟩ : Fin 4096) = gcol 0 k := Fin.ext (Nat.zero_add _).symm
  rw [e]

/-- Four matrices of 1024 columns side by side, read in band `q` at column `k` of the band: piece `q` at column `k`. -/
theorem cat_at (x₀ x₁ x₂ x₃ : FVec Ideal S64x1024 .f32)
    (h : Shape.Concatenates [S64x1024, S64x1024, S64x1024, S64x1024] S64x4096 1) (p : Fin 64) (k : Fin 1024) :
    concatenate S64x4096 1 [⟨S64x1024, x₀⟩, ⟨S64x1024, x₁⟩, ⟨S64x1024, x₂⟩, ⟨S64x1024, x₃⟩] h (ix2 p (gcol 0 k)) = x₀ (ix2 p k)
    ∧ concatenate S64x4096 1 [⟨S64x1024, x₀⟩, ⟨S64x1024, x₁⟩, ⟨S64x1024, x₂⟩, ⟨S64x1024, x₃⟩] h (ix2 p (gcol 1024 k)) = x₁ (ix2 p k)
    ∧ concatenate S64x4096 1 [⟨S64x1024, x₀⟩, ⟨S64x1024, x₁⟩, ⟨S64x1024, x₂⟩, ⟨S64x1024, x₃⟩] h (ix2 p (gcol 2048 k)) = x₂ (ix2 p k)
    ∧ concatenate S64x4096 1 [⟨S64x1024, x₀⟩, ⟨S64x1024, x₁⟩, ⟨S64x1024, x₂⟩, ⟨S64x1024, x₃⟩] h (ix2 p (gcol 3072 k)) = x₃ (ix2 p k) :=
  ⟨(LibBands.concat4_cols_apply x₀ x₁ x₂ x₃ h (ix2 p (gcol 0 k)) p k rfl).1 (Nat.zero_add _),
   (LibBands.concat4_cols_apply x₀ x₁ x₂ x₃ h (ix2 p (gcol 1024 k)) p k rfl).2.1 rfl,
   (LibBands.concat4_cols_apply x₀ x₁ x₂ x₃ h (ix2 p (gcol 2048 k)) p k rfl).2.2.1 (by show 2048 + k.val = 1024 + 1024 + k.val; omega),
   (LibBands.concat4_cols_apply x₀ x₁ x₂ x₃ h (ix2 p (gcol 3072 k)) p k rfl).2.2.2 (by show 3072 + k.val = 1024 + 1024 + 1024 + k.val; omega)⟩

/-- The difference of the zero splat and `v`, read at an index, is `0 - v` there. -/
theorem zero_sub_at (v : FVec Ideal S64x1024 .f32) (j : S64x1024.Idx) :
    subf (broadcast S64x1024 (FloatOps.ofBits (F := Ideal) .f32 0x00000000#32)) v j = 0 - v j := by
  show Ideal.ofBits .f32 0x00000000#32 - v j = 0 - v j
  rw [Ideal.ofBits_zero_f32]

/-- The bias row broadcast to 64 rows, read at row `p`, column `n`: the row's entry at column `n`. -/
theorem bias_at (b : FVec Ideal S1x4096 .f32) (h : S1x4096.Broadcasts S64x4096) (p : Fin 64) (n : Fin 4096) :
    broadcastTo S64x4096 b h (ix2 p n) = b (ix2 (0 : Fin 1) n) :=
  broadcastTo_apply b h (ix2 p n) (ix2 (0 : Fin 1) n) (fun a => match a with
    | ⟨0, _⟩ => rfl
    | ⟨1, _⟩ => rfl)

/-- The payload with the half decided, from its four left pieces and its bias row: the four bands' sums plus the bias. -/
theorem pay_at (x₀ x₁ x₂ x₃ : FVec Ideal S64x1024 .f32) (b : FVec Ideal S1x4096 .f32) (w : FVec Ideal S4096x4096 .bf16)
    (hc : Shape.Concatenates [S64x1024, S64x1024, S64x1024, S64x1024] S64x4096 1) (ht : FTy.bits .bf16 < FTy.bits .f32)
    (hb : S1x4096.Broadcasts S64x4096) (p : Fin 64) (n : Fin 4096) :
    addf (matmul (F := Ideal) dot_S64x4096_S4096x4096_S64x4096_1_0_0_1_n_n none
        (truncf .bf16 (concatenate S64x4096 1 [⟨S64x1024, x₀⟩, ⟨S64x1024, x₁⟩, ⟨S64x1024, x₂⟩, ⟨S64x1024, x₃⟩] hc) ht) w
        (constant (F := Ideal) S64x4096 .f32 0x00000000#32)) (broadcastTo S64x4096 b hb) (ix2 p n)
      = (∑ k : Fin 1024, x₀ (ix2 p k) * w (ix2 (gcol 0 k) n)) + (∑ k : Fin 1024, x₁ (ix2 p k) * w (ix2 (gcol 1024 k) n))
        + (∑ k : Fin 1024, x₂ (ix2 p k) * w (ix2 (gcol 2048 k) n)) + (∑ k : Fin 1024, x₃ (ix2 p k) * w (ix2 (gcol 3072 k) n))
        + b (ix2 (0 : Fin 1) n) := by
  refine (addf_apply _ _ _).trans ?_
  refine congrArg₂ (· + ·) ?_ (bias_at b hb p n)
  refine (matmul_at _ _ p n).trans ?_
  refine (dot_quarters _ _ p n).trans ?_
  refine congrArg₂ (· + ·) (congrArg₂ (· + ·) (congrArg₂ (· + ·) ?_ ?_) ?_) ?_
  · exact Finset.sum_congr rfl fun k _ => congrArg (· * w (ix2 (gcol 0 k) n)) (cat_at x₀ x₁ x₂ x₃ hc p k).1
  · exact Finset.sum_congr rfl fun k _ => congrArg (· * w (ix2 (gcol 1024 k) n)) (cat_at x₀ x₁ x₂ x₃ hc p k).2.1
  · exact Finset.sum_congr rfl fun k _ => congrArg (· * w (ix2 (gcol 2048 k) n)) (cat_at x₀ x₁ x₂ x₃ hc p k).2.2.1
  · exact Finset.sum_congr rfl fun k _ => congrArg (· * w (ix2 (gcol 3072 k) n)) (cat_at x₀ x₁ x₂ x₃ hc p k).2.2.2

/-- The pre-activation payload in the real half of the grid (first grid coordinate 0), read at row `p`, column `n`. -/
theorem pay4_re (i : grid0.Coords) (hi : (i 0).val = 0) (v1 v2 v3 v4 : Vec Ideal S64x1024 .f32) (v15 v17 : Vec Ideal S1x4096 .f32)
    (v23 : Vec Ideal S4096x4096 .bf16) (p : Fin 64) (n : Fin 4096) :
    k0_pay4 (F := Ideal) i v1 v2 v3 v4 v15 v17 v23 (ix2 p n)
      = (∑ k : Fin 1024, v1 (ix2 p k) * v23 (ix2 (gcol 0 k) n)) + (∑ k : Fin 1024, v2 (ix2 p k) * v23 (ix2 (gcol 1024 k) n))
        + (∑ k : Fin 1024, v3 (ix2 p k) * v23 (ix2 (gcol 2048 k) n)) + (∑ k : Fin 1024, v4 (ix2 p k) * v23 (ix2 (gcol 3072 k) n))
        + v17 (ix2 (0 : Fin 1) n) := by
  have hv0 : Scalar.cmpi .eq (BitVec.ofNat 32 (i 0).val) 1#32 = 0#1 := by rw [hi]; decide
  unfold k0_pay4
  dsimp only
  rw [hv0]
  simp only [select_zero]
  rw [shapeCast_self, shapeCast_self]
  exact pay_at v1 v2 v3 v4 v17 v23 _ _ _ p n

/-- The pre-activation payload in the imaginary half of the grid (first grid coordinate 1), read at row `p`, column `n`. -/
theorem pay4_im (i : grid0.Coords) (hi : (i 0).val = 1) (v1 v2 v3 v4 : Vec Ideal S64x1024 .f32) (v15 v17 : Vec Ideal S1x4096 .f32)
    (v23 : Vec Ideal S4096x4096 .bf16) (p : Fin 64) (n : Fin 4096) :
    k0_pay4 (F := Ideal) i v1 v2 v3 v4 v15 v17 v23 (ix2 p n)
      = (∑ k : Fin 1024, v2 (ix2 p k) * v23 (ix2 (gcol 0 k) n)) + (∑ k : Fin 1024, (0 - v1 (ix2 p k)) * v23 (ix2 (gcol 1024 k) n))
        + (∑ k : Fin 1024, v4 (ix2 p k) * v23 (ix2 (gcol 2048 k) n)) + (∑ k : Fin 1024, (0 - v3 (ix2 p k)) * v23 (ix2 (gcol 3072 k) n))
        + v15 (ix2 (0 : Fin 1) n) := by
  have hv0 : Scalar.cmpi .eq (BitVec.ofNat 32 (i 0).val) 1#32 = 1#1 := by rw [hi]; decide
  unfold k0_pay4
  dsimp only
  rw [hv0]
  simp only [select_one]
  rw [shapeCast_self, shapeCast_self]
  refine (pay_at v2 _ v4 _ v15 v23 _ _ _ p n).trans ?_
  refine congrArg₂ (· + ·) (congrArg₂ (· + ·) (congrArg₂ (· + ·) (congrArg₂ (· + ·) rfl ?_) rfl) ?_) rfl
  · exact Finset.sum_congr rfl fun k _ => congrArg (· * v23 (ix2 (gcol 1024 k) n)) (zero_sub_at v1 (ix2 p k))
  · exact Finset.sum_congr rfl fun k _ => congrArg (· * v23 (ix2 (gcol 3072 k) n)) (zero_sub_at v3 (ix2 p k))

end Cert.KernelIdeal.Pay
end
-- ==== Proof.KernelValue.lean ====
/-
  What the kernel's run leaves in its two result arrays, at the ideal instance: `hidG` and `cellG` of the argument arrays.

  The grid is 2 × 64: point `(s, b)` handles half `s` (0 real, 1 imaginary) of batch tile `b` (rows `64 b … 64 b + 63`).
  There the body holds rows `64 b + p` of the input and of the two states (all 2048 columns), the whole stacked
  weight matrix — rows `0 … 1023` the real kernel, `1024 … 2047` the imaginary kernel, `2048 … 3071` the real
  recurrent kernel, `3072 … 4095` the imaginary recurrent kernel, as the host's concatenation laid them — and the
  two bias rows, and writes rows `64 b + p`, columns `1024 s + u` of both results. One product of the 4096-long left
  row `[xr, xi, hr, hi]` (real half) or `[xi, −xr, hi, −hr]` (imaginary half) with the stacked matrix is, quarter by
  quarter, the four products of the specification; in the imaginary half the two negated quarters are the negated
  sums because the entries are real (the precondition), and adding a negation is subtracting. The blocks tile both
  result arrays, so each ends as the specification's function everywhere.
-/
import proofs.«110221_j51677046505499_2_alg».proof.Proof.FrameIdeal
import proofs.«110221_j51677046505499_2_alg».proof.Proof.Spec
import proofs.«110221_j51677046505499_2_alg».proof.Proof.LibBands
import proofs.«110221_j51677046505499_2_alg».proof.Proof.Payload
import Idealize.ShloMosaic.Lib.Pipeline.Value
import Idealize.ShloMosaic.Lib.StableHlo.Run
import Idealize.ShloMosaic.Lib.ValueLayout

set_option maxRecDepth 16384

noncomputable section

namespace Cert.KernelIdeal.KV

open Cert.KernelIdeal Cert.KernelIdeal.Gen Cert.KernelIdeal.Hand Cert.CLstm Cert.LibBands
open Idealize.ShloMosaic Idealize.ShloMosaic.TcCoe Idealize.ShloMosaic.ValueIdx Idealize.SL.Sem
open Idealize.ShloMosaic.Pipeline (Dat Cfg Window)

variable (m : (ℓ : Loc nD τ sig) → Buf (Elt Ideal) ℓ) (ρ : Dev nD → PrngReg)

/-! ## What the host operations leave for the region -/

section Host
open Idealize.ShloMosaic.StableHlo

/-- The stacked weight matrix: the four weight matrices on top of one another (a change of float format is the
    identity here). -/
theorem stacked (c : Dev nD) : (V m c main_v4 : S4096x4096.Idx → EReal)
    = concatenate S4096x4096 0 [⟨S1024x4096, truncf (F := Ideal) .bf16 (m ((c : Thread nD τ).loc main_arg3)) bitsLt_bf16_f32⟩,
        ⟨S1024x4096, truncf (F := Ideal) .bf16 (m ((c : Thread nD τ).loc main_arg4)) bitsLt_bf16_f32⟩,
        ⟨S1024x4096, truncf (F := Ideal) .bf16 (m ((c : Thread nD τ).loc main_arg5)) bitsLt_bf16_f32⟩,
        ⟨S1024x4096, truncf (F := Ideal) .bf16 (m ((c : Thread nD τ).loc main_arg6)) bitsLt_bf16_f32⟩]
        concatenates_S1024x4096_S1024x4096_S1024x4096_S1024x4096_S4096x4096_d0 := by
  dsimp only [Hand.V, hostOps0]
  simp only [after_cons, after_nil]
  rw [reshape_result_ne]; rotate_left; decide
  rw [reshape_result_ne]; rotate_left; decide
  rw [nary4_result]
  repeat (first | rw [unary_result] | (rw [unary_result_ne]; rotate_left; decide))
  rfl

/-- The real bias as a row. -/
theorem biasRow_re (c : Dev nD) : (V m c main_v5 : S1x4096.Idx → EReal)
    = shapeCast S1x4096 (m ((c : Thread nD τ).loc main_arg7)) shapeCasts_S4096_S1x4096 := by
  dsimp only [Hand.V, hostOps0]
  after_results
  rfl

/-- The imaginary bias as a row. -/
theorem biasRow_im (c : Dev nD) : (V m c main_v6 : S1x4096.Idx → EReal)
    = shapeCast S1x4096 (m ((c : Thread nD τ).loc main_arg8)) shapeCasts_S4096_S1x4096 := by
  dsimp only [Hand.V, hostOps0]
  after_results
  rfl

end Host

/-! ## The printed index maps over the grid -/

/-- Block indices of the eight windows at a grid point, decided over the 128 points: the input and the two states
    move with the batch tile, the weights and the bias rows do not move, the results move with the batch tile (rows)
    and the half (columns). -/
theorem idx_facts : ∀ t : Fin cfg0.N,
    win0_0.index t (0 : Fin 2) = (grid0.coords t 1).val ∧ win0_0.index t (1 : Fin 2) = 0
    ∧ win0_1.index t (0 : Fin 2) = (grid0.coords t 1).val ∧ win0_1.index t (1 : Fin 2) = 0
    ∧ win0_2.index t (0 : Fin 2) = (grid0.coords t 1).val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = (grid0.coords t 1).val ∧ win0_6.index t (1 : Fin 2) = (grid0.coords t 0).val
    ∧ win0_7.index t (0 : Fin 2) = (grid0.coords t 1).val ∧ win0_7.index t (1 : Fin 2) = (grid0.coords t 0).val
    ∧ (grid0.coords t 0).val ≤ 1 ∧ (grid0.coords t 1).val ≤ 63 :=
  (by decide +kernel : ∀ t : Fin grid0.N, _)

/-- Every (half, batch tile) is some point's. -/
theorem idx_onto : ∀ (s : Fin 2) (b : Fin 64), ∃ t : Fin cfg0.N, (grid0.coords t 0).val = s.val ∧ (grid0.coords t 1).val = b.val :=
  (by decide +kernel : ∀ (s : Fin 2) (b : Fin 64), ∃ t : Fin grid0.N, (grid0.coords t 0).val = s.val ∧ (grid0.coords t 1).val = b.val)

/-- The array row of row `p` of the batch tile of point `t`. -/
abbrev arow (t : Fin cfg0.N) (p : Fin 64) : Fin 4096 :=
  ⟨(grid0.coords t 1).val * 64 + p.val, by have := (idx_facts t).2.2.2.2.2.2.2.2.2.2.2.2.2.2.2.2.2; have := p.isLt; omega⟩

theorem hz : (![0, 0] : Fin 2 → Nat) = fun _ => 0 := funext fun a => by fin_cases a <;> rfl

/-! ## The input blocks, read at an index -/

/-- Row `p`, column `q` of the input's block is row `64 b + p`, column `q` of the input. -/
theorem in0_at (c : Dev nD) (t : Fin cfg0.N) (p : Fin 64) (q : Fin 2048) :
    iblk m c 0 t (ix2 p q) = m ((c : Thread nD τ).loc main_arg0) (ix2 (arow t p) q) := by
  unfold iblk
  show V m c main_arg0 (((cfg0.win 0).blk t).view.emb (ix2 p q)) = _
  rw [V_main_arg0]
  obtain ⟨e0, e1, -⟩ := idx_facts t
  refine congrArg _ (funext fun a => Fin.ext ?_)
  match a with
  | ⟨0, _⟩ => show win0_0.index t (0 : Fin 2) * 64 + 1 * p.val = (grid0.coords t 1).val * 64 + p.val; rw [e0]; omega
  | ⟨1, _⟩ => show win0_0.index t (1 : Fin 2) * 2048 + 1 * q.val = q.val; rw [e1]; omega

/-- The same for the hidden state. -/
theorem in1_at (c : Dev nD) (t : Fin cfg0.N) (p : Fin 64) (q : Fin 2048) :
    iblk m c 1 t (ix2 p q) = m ((c : Thread nD τ).loc main_arg1) (ix2 (arow t p) q) := by
  unfold iblk
  show V m c main_arg1 (((cfg0.win 1).blk t).view.emb (ix2 p q)) = _
  rw [V_main_arg1]
  obtain ⟨-, -, e0, e1, -⟩ := idx_facts t
  refine congrArg _ (funext fun a => Fin.ext ?_)
  match a with
  | ⟨0, _⟩ => show win0_1.index t (0 : Fin 2) * 64 + 1 * p.val = (grid0.coords t 1).val * 64 + p.val; rw [e0]; omega
  | ⟨1, _⟩ => show win0_1.index t (1 : Fin 2) * 2048 + 1 * q.val = q.val; rw [e1]; omega

/-- The same for the cell state. -/
theorem in2_at (c : Dev nD) (t : Fin cfg0.N) (p : Fin 64) (q : Fin 2048) :
    iblk m c 2 t (ix2 p q) = m ((c : Thread nD τ).loc main_arg2) (ix2 (arow t p) q) := by
  unfold iblk
  show V m c main_arg2 (((cfg0.win 2).blk t).view.emb (ix2 p q)) = _
  rw [V_main_arg2]
  obtain ⟨-, -, -, -, e0, e1, -⟩ := idx_facts t
  refine congrArg _ (funext fun a => Fin.ext ?_)
  match a with
  | ⟨0, _⟩ => show win0_2.index t (0 : Fin 2) * 64 + 1 * p.val = (grid0.coords t 1).val * 64 + p.val; rw [e0]; omega
  | ⟨1, _⟩ => show win0_2.index t (1 : Fin 2) * 2048 + 1 * q.val = q.val; rw [e1]; omega

/-- The weight window's block is the whole stacked matrix. -/
theorem in3_eq (c : Dev nD) (t : Fin cfg0.N) : (iblk m c 3 t : S4096x4096.Idx → EReal) = V m c main_v4 := by
  unfold iblk
  funext j
  show V m c main_v4 (((cfg0.win 3).blk t).view.emb j) = _
  obtain ⟨-, -, -, -, -, -, e0, e1, -⟩ := idx_facts t
  refine congrArg _ (funext fun a => Fin.ext ?_)
  match a with
  | ⟨0, _⟩ => show win0_3.index t (0 : Fin 2) * 4096 + 1 * (j 0).val = (j 0).val; rw [e0]; omega
  | ⟨1, _⟩ => show win0_3.index t (1 : Fin 2) * 4096 + 1 * (j 1).val = (j 1).val; rw [e1]; omega

/-- The real bias window's block is the whole row. -/
theorem in4_eq (c : Dev nD) (t : Fin cfg0.N) : (iblk m c 4 t : S1x4096.Idx → EReal) = V m c main_v5 := by
  unfold iblk
  funext j
  show V m c main_v5 (((cfg0.win 4).blk t).view.emb j) = _
  obtain ⟨-, -, -, -, -, -, -, -, e0, e1, -⟩ := idx_facts t
  refine congrArg _ (funext fun a => Fin.ext ?_)
  match a with
  | ⟨0, _⟩ => show win0_4.index t (0 : Fin 2) * 1 + 1 * (j 0).val = (j 0).val; rw [e0]; omega
  | ⟨1, _⟩ => show win0_4.index t (1 : Fin 2) * 4096 + 1 * (j 1).val = (j 1).val; rw [e1]; omega

/-- The imaginary bias window's block is the whole row. -/
theorem in5_eq (c : Dev nD) (t : Fin cfg0.N) : (iblk m c 5 t : S1x4096.Idx → EReal) = V m c main_v6 := by
  unfold iblk
  funext j
  show V m c main_v6 (((cfg0.win 5).blk t).view.emb j) = _
  obtain ⟨-, -, -, -, -, -, -, -, -, -, e0, e1, -⟩ := idx_facts t
  refine congrArg _ (funext fun a => Fin.ext ?_)
  match a with
  | ⟨0, _⟩ => show win0_5.index t (0 : Fin 2) * 1 + 1 * (j 0).val = (j 0).val; rw [e0]; omega
  | ⟨1, _⟩ => show win0_5.index t (1 : Fin 2) * 4096 + 1 * (j 1).val = (j 1).val; rw [e1]; omega

/-- Row `off + k` of the stacked matrix is row `k` of the piece starting at `off`. -/
theorem stacked_at0 (c : Dev nD) (k : Fin 1024) (n : Fin 4096) :
    V m c main_v4 (ix2 (gcol 0 k) n) = m ((c : Thread nD τ).loc main_arg3) (ix2 k n) :=
  (congrFun (stacked m c) _).trans ((concat4_rows_apply (n := 1024) (C := 4096) (N := 4096) _ _ _ _ _ (ix2 (gcol 0 k) n) k n rfl).1 (by show 0 + k.val = k.val; omega))
theorem stacked_at1 (c : Dev nD) (k : Fin 1024) (n : Fin 4096) :
    V m c main_v4 (ix2 (gcol 1024 k) n) = m ((c : Thread nD τ).loc main_arg4) (ix2 k n) :=
  (congrFun (stacked m c) _).trans ((concat4_rows_apply (n := 1024) (C := 4096) (N := 4096) _ _ _ _ _ (ix2 (gcol 1024 k) n) k n rfl).2.1 rfl)
theorem stacked_at2 (c : Dev nD) (k : Fin 1024) (n : Fin 4096) :
    V m c main_v4 (ix2 (gcol 2048 k) n) = m ((c : Thread nD τ).loc main_arg5) (ix2 k n) :=
  (congrFun (stacked m c) _).trans ((concat4_rows_apply (n := 1024) (C := 4096) (N := 4096) _ _ _ _ _ (ix2 (gcol 2048 k) n) k n rfl).2.2.1 rfl)
theorem stacked_at3 (c : Dev nD) (k : Fin 1024) (n : Fin 4096) :
    V m c main_v4 (ix2 (gcol 3072 k) n) = m ((c : Thread nD τ).loc main_arg6) (ix2 k n) :=
  (congrFun (stacked m c) _).trans ((concat4_rows_apply (n := 1024) (C := 4096) (N := 4096) _ _ _ _ _ (ix2 (gcol 3072 k) n) k n rfl).2.2.2 rfl)

/-- The real bias row at column `n` is the bias vector's entry `n`. -/
theorem biasRe_at (c : Dev nD) (n : Fin 4096) : V m c main_v5 (ix2 (0 : Fin 1) n) = m ((c : Thread nD τ).loc main_arg7) (ix1 n) := by
  rw [show (V m c main_v5 : S1x4096.Idx → EReal) = _ from biasRow_re m c]
  exact shapeCast_a_1a_apply (a := 4096) _ _ 0 n

/-- The imaginary bias row at column `n` is the bias vector's entry `n`. -/
theorem biasIm_at (c : Dev nD) (n : Fin 4096) : V m c main_v6 (ix2 (0 : Fin 1) n) = m ((c : Thread nD τ).loc main_arg8) (ix1 n) := by
  rw [show (V m c main_v6 : S1x4096.Idx → EReal) = _ from biasRow_im m c]
  exact shapeCast_a_1a_apply (a := 4096) _ _ 0 n

/-- The left half of a block, read at an index. -/
theorem ld_lo (X : Vec Ideal S64x2048 .f32) (p : Fin 64) (k : Fin 1024) : View.ld X rLo (ix2 p k) = X (ix2 p (lo k)) := by
  show X (rLo.emb (ix2 p k)) = _
  refine congrArg X (funext fun a => Fin.ext ?_)
  match a with
  | ⟨0, _⟩ => show 0 + 1 * p.val = p.val; omega
  | ⟨1, _⟩ => show 0 + 1 * k.val = k.val; omega

/-- The right half of a block, read at an index. -/
theorem ld_hi (X : Vec Ideal S64x2048 .f32) (p : Fin 64) (k : Fin 1024) : View.ld X rHi (ix2 p k) = X (ix2 p (hi k)) := by
  show X (rHi.emb (ix2 p k)) = _
  refine congrArg X (funext fun a => Fin.ext ?_)
  match a with
  | ⟨0, _⟩ => show 0 + 1 * p.val = p.val; omega
  | ⟨1, _⟩ => show 1024 + 1 * k.val = 1024 + k.val; omega

/-! ## The body's arithmetic at an index -/

/-- Column `off + u` of row `y 0` of the 64 × 4096 pre-activation block. -/
abbrev zcol (off : Nat) (y : S64x1024.Idx) (h : off ≤ 3072 := by omega) : S64x4096.Idx :=
  ix2 (n0 := 64) (n1 := 4096) (y 0) (gcol off (y 1) h)

section Pointwise
variable (i : grid0.Coords) (v20 v21 v1 v2 v3 v4 : Vec Ideal S64x1024 .f32) (v15 v17 : Vec Ideal S1x4096 .f32) (v23 : Vec Ideal S4096x4096 .bf16)

theorem slice_at (off : Nat) (h : off ≤ 3072) (hs : S64x4096.Slices ![0, off] S64x1024) (Z : S64x4096.Idx → EReal) (y : S64x1024.Idx) :
    extractStridedSlice S64x1024 ![0, off] Z hs y = Z (zcol off y h) :=
  extractStridedSlice_apply _ _ _ _ _ (fun a => match a with
    | ⟨0, _⟩ => by show (y 0).val = 0 + (y 0).val; omega
    | ⟨1, _⟩ => by show off + (y 1).val = off + (y 1).val; rfl)

/-- The stored cell-state block at an index: the cell update of the three gate pre-activations there. -/
theorem cell_of_pay (y : S64x1024.Idx) :
    k0_pay1 (F := Ideal) (k0_pay3 i v20 v21) (k0_pay5 i v1 v2 v3 v4 v15 v17 v23) (k0_pay6 i v1 v2 v3 v4 v15 v17 v23)
        (k0_pay8 i v1 v2 v3 v4 v15 v17 v23) (Scalar.ofBits .f32 0x3F000000#32) y
      = cellOf (k0_pay4 (F := Ideal) i v1 v2 v3 v4 v15 v17 v23 (zcol 0 y)) (k0_pay4 (F := Ideal) i v1 v2 v3 v4 v15 v17 v23 (zcol 1024 y))
          (k0_pay4 (F := Ideal) i v1 v2 v3 v4 v15 v17 v23 (zcol 2048 y)) (k0_pay3 (F := Ideal) i v20 v21 y) := by
  rw [← slice_at 0 (by omega) slices_S64x4096_o0_0_S64x1024 (k0_pay4 (F := Ideal) i v1 v2 v3 v4 v15 v17 v23) y,
    ← slice_at 1024 (by omega) slices_S64x4096_o0_1024_S64x1024 (k0_pay4 (F := Ideal) i v1 v2 v3 v4 v15 v17 v23) y,
    ← slice_at 2048 (by omega) slices_S64x4096_o0_2048_S64x1024 (k0_pay4 (F := Ideal) i v1 v2 v3 v4 v15 v17 v23) y]
  rfl

/-- The stored hidden-state block at an index. -/
theorem hid_of_pay (y : S64x1024.Idx) :
    k0_pay2 (F := Ideal) (k0_pay3 i v20 v21) (k0_pay5 i v1 v2 v3 v4 v15 v17 v23) (k0_pay6 i v1 v2 v3 v4 v15 v17 v23)
        (k0_pay7 i v1 v2 v3 v4 v15 v17 v23) (k0_pay8 i v1 v2 v3 v4 v15 v17 v23) (Scalar.ofBits .f32 0x3F000000#32) y
      = hidOf (k0_pay4 (F := Ideal) i v1 v2 v3 v4 v15 v17 v23 (zcol 3072 y))
          (k0_pay1 (F := Ideal) (k0_pay3 i v20 v21) (k0_pay5 i v1 v2 v3 v4 v15 v17 v23) (k0_pay6 i v1 v2 v3 v4 v15 v17 v23)
            (k0_pay8 i v1 v2 v3 v4 v15 v17 v23) (Scalar.ofBits .f32 0x3F000000#32) y) := by
  rw [← slice_at 3072 (by omega) slices_S64x4096_o0_3072_S64x1024 (k0_pay4 (F := Ideal) i v1 v2 v3 v4 v15 v17 v23) y]
  rfl

/-- The old cell state the body multiplies by: the half's columns of the cell-state block. -/
theorem cin_re (hi : (i 0).val = 0) (y : S64x1024.Idx) : k0_pay3 (F := Ideal) i v20 v21 y = v21 y := by
  unfold k0_pay3; rw [hi]; rfl
theorem cin_im (hi : (i 0).val = 1) (y : S64x1024.Idx) : k0_pay3 (F := Ideal) i v20 v21 y = v20 y := by
  unfold k0_pay3; rw [hi]; rfl

end Pointwise

theorem ld_lo' (X : Vec Ideal S64x2048 .f32) (y : S64x1024.Idx) : View.ld X rLo y = X (ix2 (y 0) (lo (y 1))) :=
  (congrArg (View.ld X rLo) (eq_ix2 y)).trans (ld_lo X (y 0) (y 1))
theorem ld_hi' (X : Vec Ideal S64x2048 .f32) (y : S64x1024.Idx) : View.ld X rHi y = X (ix2 (y 0) (hi (y 1))) :=
  (congrArg (View.ld X rHi) (eq_ix2 y)).trans (ld_hi X (y 0) (y 1))

theorem add5 {a a' b b' c c' d d' e e' : EReal} (ha : a = a') (hb : b = b') (hc : c = c') (hd : d = d') (he : e = e') :
    a + b + c + d + e = a' + b' + c' + d' + e' := by subst ha hb hc hd he; rfl
theorem mul2 {a a' b b' : EReal} (ha : a = a') (hb : b = b') : a * b = a' * b' := by subst ha hb; rfl
theorem zsub_mul2 {a a' b b' : EReal} (ha : a = a') (hb : b = b') : (0 - a) * b = (0 - a') * b' := by subst ha hb; rfl

/-! ## The pre-activations of a point's block are the specification's -/

section Terms
variable (c : Dev nD) (t : Fin cfg0.N) (p : Fin 64) (n : Fin 4096) (k : Fin 1024)

theorem x_lo : (View.ld (iblk m c 0 t) rLo (ix2 p k) : EReal) = (m ((c : Thread nD τ).loc main_arg0)) (ix2 (arow t p) (lo k)) := (ld_lo _ p k).trans (in0_at m c t p (lo k))
theorem x_hi : (View.ld (iblk m c 0 t) rHi (ix2 p k) : EReal) = (m ((c : Thread nD τ).loc main_arg0)) (ix2 (arow t p) (hi k)) := (ld_hi _ p k).trans (in0_at m c t p (hi k))
theorem h_lo : (View.ld (iblk m c 1 t) rLo (ix2 p k) : EReal) = (m ((c : Thread nD τ).loc main_arg1)) (ix2 (arow t p) (lo k)) := (ld_lo _ p k).trans (in1_at m c t p (lo k))
theorem h_hi : (View.ld (iblk m c 1 t) rHi (ix2 p k) : EReal) = (m ((c : Thread nD τ).loc main_arg1)) (ix2 (arow t p) (hi k)) := (ld_hi _ p k).trans (in1_at m c t p (hi k))
theorem w0 : (iblk m c 3 t (ix2 (gcol 0 k) n) : EReal) = (m ((c : Thread nD τ).loc main_arg3)) (ix2 k n) := (congrFun (in3_eq m c t) _).trans (stacked_at0 m c k n)
theorem w1 : (iblk m c 3 t (ix2 (gcol 1024 k) n) : EReal) = (m ((c : Thread nD τ).loc main_arg4)) (ix2 k n) := (congrFun (in3_eq m c t) _).trans (stacked_at1 m c k n)
theorem w2 : (iblk m c 3 t (ix2 (gcol 2048 k) n) : EReal) = (m ((c : Thread nD τ).loc main_arg5)) (ix2 k n) := (congrFun (in3_eq m c t) _).trans (stacked_at2 m c k n)
theorem w3 : (iblk m c 3 t (ix2 (gcol 3072 k) n) : EReal) = (m ((c : Thread nD τ).loc main_arg6)) (ix2 k n) := (congrFun (in3_eq m c t) _).trans (stacked_at3 m c k n)
theorem b_re : (iblk m c 4 t (ix2 (0 : Fin 1) n) : EReal) = (m ((c : Thread nD τ).loc main_arg7)) (ix1 n) := (congrFun (in4_eq m c t) _).trans (biasRe_at m c n)
theorem b_im : (iblk m c 5 t (ix2 (0 : Fin 1) n) : EReal) = (m ((c : Thread nD τ).loc main_arg8)) (ix1 n) := (congrFun (in5_eq m c t) _).trans (biasIm_at m c n)

end Terms

/-- Real half. -/
theorem pre_re (c : Dev nD) (t : Fin cfg0.N) (h0 : (grid0.coords t 0).val = 0) (p : Fin 64) (n : Fin 4096) :
    k0_pay4 (F := Ideal) (grid0.coords t) (View.ld (iblk m c 0 t) rLo) (View.ld (iblk m c 0 t) rHi) (View.ld (iblk m c 1 t) rLo) (View.ld (iblk m c 1 t) rHi) (iblk m c 5 t) (iblk m c 4 t) (iblk m c 3 t) (ix2 p n)
      = preRe (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (arow t p) n := by
  refine (Pay.pay4_re _ h0 _ _ _ _ _ _ _ p n).trans ?_
  unfold preRe dotRe dotIm
  exact add5 (Finset.sum_congr rfl fun k _ => mul2 (x_lo m c t p k) (w0 m c t n k)) (Finset.sum_congr rfl fun k _ => mul2 (x_hi m c t p k) (w1 m c t n k))
    (Finset.sum_congr rfl fun k _ => mul2 (h_lo m c t p k) (w2 m c t n k)) (Finset.sum_congr rfl fun k _ => mul2 (h_hi m c t p k) (w3 m c t n k)) (b_re m c t n)

/-- Imaginary half: the two negated quarters are negated sums because the entries are real. -/
theorem pre_im (c : Dev nD) (t : Fin cfg0.N) (h1 : (grid0.coords t 0).val = 1) (p : Fin 64) (n : Fin 4096)
    (hx : ∀ i, ∃ r : ℝ, m ((c : Thread nD τ).loc main_arg0) i = (r : EReal)) (hh : ∀ i, ∃ r : ℝ, m ((c : Thread nD τ).loc main_arg1) i = (r : EReal))
    (hI : ∀ i, ∃ r : ℝ, m ((c : Thread nD τ).loc main_arg4) i = (r : EReal)) (hIr : ∀ i, ∃ r : ℝ, m ((c : Thread nD τ).loc main_arg6) i = (r : EReal)) :
    k0_pay4 (F := Ideal) (grid0.coords t) (View.ld (iblk m c 0 t) rLo) (View.ld (iblk m c 0 t) rHi) (View.ld (iblk m c 1 t) rLo) (View.ld (iblk m c 1 t) rHi) (iblk m c 5 t) (iblk m c 4 t) (iblk m c 3 t) (ix2 p n)
      = preIm (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg8)) (arow t p) n := by
  refine (Pay.pay4_im _ h1 _ _ _ _ _ _ _ p n).trans ?_
  refine (add5 (Finset.sum_congr rfl fun k _ => mul2 (x_hi m c t p k) (w0 m c t n k)) (Finset.sum_congr rfl fun k _ => zsub_mul2 (x_lo m c t p k) (w1 m c t n k))
    (Finset.sum_congr rfl fun k _ => mul2 (h_hi m c t p k) (w2 m c t n k)) (Finset.sum_congr rfl fun k _ => zsub_mul2 (h_lo m c t p k) (w3 m c t n k)) (b_im m c t n)).trans ?_
  rw [sum_zero_sub_mul (fun k : Fin 1024 => (m ((c : Thread nD τ).loc main_arg0)) (ix2 (arow t p) (lo k))) (fun k : Fin 1024 => (m ((c : Thread nD τ).loc main_arg4)) (ix2 k n)) (fun k => hx _) (fun k => hI _),
    sum_zero_sub_mul (fun k : Fin 1024 => (m ((c : Thread nD τ).loc main_arg1)) (ix2 (arow t p) (lo k))) (fun k : Fin 1024 => (m ((c : Thread nD τ).loc main_arg6)) (ix2 k n)) (fun k => hh _) (fun k => hIr _)]
  unfold preIm dotRe dotIm
  rw [sub_eq_add_neg, sub_eq_add_neg]

/-! ## From blocks to the arrays -/

theorem cut6 (t : Fin cfg0.N) (X : S64x1024.Idx → EReal) : (cfg0.win 6).cut (grid0.coords t) X = X := rfl
theorem cut7 (t : Fin cfg0.N) (X : S64x1024.Idx → EReal) : (cfg0.win 7).cut (grid0.coords t) X = X := rfl

/-- The nine argument arrays' entries that the imaginary half's law needs are real. -/
structure RealArgs (c : Dev nD) : Prop where
  x : ∀ i, ∃ r : ℝ, m ((c : Thread nD τ).loc main_arg0) i = (r : EReal)
  h : ∀ i, ∃ r : ℝ, m ((c : Thread nD τ).loc main_arg1) i = (r : EReal)
  I : ∀ i, ∃ r : ℝ, m ((c : Thread nD τ).loc main_arg4) i = (r : EReal)
  Ir : ∀ i, ∃ r : ℝ, m ((c : Thread nD τ).loc main_arg6) i = (r : EReal)

theorem cellOf_congr {a a' b b' c c' d d' : EReal} (ha : a = a') (hb : b = b') (hc : c = c') (hd : d = d') :
    cellOf a b c d = cellOf a' b' c' d' := by subst ha hb hc hd; rfl
theorem hidOf_congr {a a' b b' : EReal} (ha : a = a') (hb : b = b') : hidOf a b = hidOf a' b' := by subst ha hb; rfl

/-- The cell update at a point's index, real half. -/
theorem cell_val_re (c : Dev nD) (t : Fin cfg0.N) (h0 : (grid0.coords t 0).val = 0) (y : S64x1024.Idx) :
    k0_pay1 (F := Ideal) (k0_pay3 (grid0.coords t) (View.ld (iblk m c 2 t) rHi) (View.ld (iblk m c 2 t) rLo))
        (k0_pay5 (grid0.coords t) (View.ld (iblk m c 0 t) rLo) (View.ld (iblk m c 0 t) rHi) (View.ld (iblk m c 1 t) rLo) (View.ld (iblk m c 1 t) rHi) (iblk m c 5 t) (iblk m c 4 t) (iblk m c 3 t)) (k0_pay6 (grid0.coords t) (View.ld (iblk m c 0 t) rLo) (View.ld (iblk m c 0 t) rHi) (View.ld (iblk m c 1 t) rLo) (View.ld (iblk m c 1 t) rHi) (iblk m c 5 t) (iblk m c 4 t) (iblk m c 3 t)) (k0_pay8 (grid0.coords t) (View.ld (iblk m c 0 t) rLo) (View.ld (iblk m c 0 t) rHi) (View.ld (iblk m c 1 t) rLo) (View.ld (iblk m c 1 t) rHi) (iblk m c 5 t) (iblk m c 4 t) (iblk m c 3 t)) (Scalar.ofBits .f32 0x3F000000#32) y
      = cellG (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (ix2 (arow t (y 0)) (lo (y 1))) := by
  refine (cell_of_pay _ _ _ _ _ _ _ _ _ _ y).trans ?_
  refine Eq.trans ?_ (cellG_re _ _ _ _ _ _ _ _ _ (arow t (y 0)) (y 1)).symm
  exact cellOf_congr (pre_re m c t h0 (y 0) (gcol 0 (y 1))) (pre_re m c t h0 (y 0) (gcol 1024 (y 1))) (pre_re m c t h0 (y 0) (gcol 2048 (y 1)))
    ((cin_re _ _ _ h0 y).trans ((ld_lo' _ y).trans (in2_at m c t (y 0) (lo (y 1)))))

/-- The cell update at a point's index, imaginary half. -/
theorem cell_val_im (c : Dev nD) (hr : RealArgs m c) (t : Fin cfg0.N) (h1 : (grid0.coords t 0).val = 1) (y : S64x1024.Idx) :
    k0_pay1 (F := Ideal) (k0_pay3 (grid0.coords t) (View.ld (iblk m c 2 t) rHi) (View.ld (iblk m c 2 t) rLo))
        (k0_pay5 (grid0.coords t) (View.ld (iblk m c 0 t) rLo) (View.ld (iblk m c 0 t) rHi) (View.ld (iblk m c 1 t) rLo) (View.ld (iblk m c 1 t) rHi) (iblk m c 5 t) (iblk m c 4 t) (iblk m c 3 t)) (k0_pay6 (grid0.coords t) (View.ld (iblk m c 0 t) rLo) (View.ld (iblk m c 0 t) rHi) (View.ld (iblk m c 1 t) rLo) (View.ld (iblk m c 1 t) rHi) (iblk m c 5 t) (iblk m c 4 t) (iblk m c 3 t)) (k0_pay8 (grid0.coords t) (View.ld (iblk m c 0 t) rLo) (View.ld (iblk m c 0 t) rHi) (View.ld (iblk m c 1 t) rLo) (View.ld (iblk m c 1 t) rHi) (iblk m c 5 t) (iblk m c 4 t) (iblk m c 3 t)) (Scalar.ofBits .f32 0x3F000000#32) y
      = cellG (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (ix2 (arow t (y 0)) (hi (y 1))) := by
  refine (cell_of_pay _ _ _ _ _ _ _ _ _ _ y).trans ?_
  refine Eq.trans ?_ (cellG_im _ _ _ _ _ _ _ _ _ (arow t (y 0)) (y 1)).symm
  exact cellOf_congr (pre_im m c t h1 (y 0) (gcol 0 (y 1)) hr.x hr.h hr.I hr.Ir) (pre_im m c t h1 (y 0) (gcol 1024 (y 1)) hr.x hr.h hr.I hr.Ir)
    (pre_im m c t h1 (y 0) (gcol 2048 (y 1)) hr.x hr.h hr.I hr.Ir)
    ((cin_im _ _ _ h1 y).trans ((ld_hi' _ y).trans (in2_at m c t (y 0) (hi (y 1)))))

/-- The hidden state at a point's index, real half. -/
theorem hid_val_re (c : Dev nD) (t : Fin cfg0.N) (h0 : (grid0.coords t 0).val = 0) (y : S64x1024.Idx) :
    k0_pay2 (F := Ideal) (k0_pay3 (grid0.coords t) (View.ld (iblk m c 2 t) rHi) (View.ld (iblk m c 2 t) rLo))
        (k0_pay5 (grid0.coords t) (View.ld (iblk m c 0 t) rLo) (View.ld (iblk m c 0 t) rHi) (View.ld (iblk m c 1 t) rLo) (View.ld (iblk m c 1 t) rHi) (iblk m c 5 t) (iblk m c 4 t) (iblk m c 3 t)) (k0_pay6 (grid0.coords t) (View.ld (iblk m c 0 t) rLo) (View.ld (iblk m c 0 t) rHi) (View.ld (iblk m c 1 t) rLo) (View.ld (iblk m c 1 t) rHi) (iblk m c 5 t) (iblk m c 4 t) (iblk m c 3 t)) (k0_pay7 (grid0.coords t) (View.ld (iblk m c 0 t) rLo) (View.ld (iblk m c 0 t) rHi) (View.ld (iblk m c 1 t) rLo) (View.ld (iblk m c 1 t) rHi) (iblk m c 5 t) (iblk m c 4 t) (iblk m c 3 t)) (k0_pay8 (grid0.coords t) (View.ld (iblk m c 0 t) rLo) (View.ld (iblk m c 0 t) rHi) (View.ld (iblk m c 1 t) rLo) (View.ld (iblk m c 1 t) rHi) (iblk m c 5 t) (iblk m c 4 t) (iblk m c 3 t)) (Scalar.ofBits .f32 0x3F000000#32) y
      = hidG (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (ix2 (arow t (y 0)) (lo (y 1))) := by
  refine (hid_of_pay _ _ _ _ _ _ _ _ _ _ y).trans ?_
  refine Eq.trans ?_ (hidG_re _ _ _ _ _ _ _ _ _ (arow t (y 0)) (y 1)).symm
  exact hidOf_congr (pre_re m c t h0 (y 0) (gcol 3072 (y 1)))
    ((cell_val_re m c t h0 y).trans (cellG_re _ _ _ _ _ _ _ _ _ (arow t (y 0)) (y 1)))

/-- The hidden state at a point's index, imaginary half. -/
theorem hid_val_im (c : Dev nD) (hr : RealArgs m c) (t : Fin cfg0.N) (h1 : (grid0.coords t 0).val = 1) (y : S64x1024.Idx) :
    k0_pay2 (F := Ideal) (k0_pay3 (grid0.coords t) (View.ld (iblk m c 2 t) rHi) (View.ld (iblk m c 2 t) rLo))
        (k0_pay5 (grid0.coords t) (View.ld (iblk m c 0 t) rLo) (View.ld (iblk m c 0 t) rHi) (View.ld (iblk m c 1 t) rLo) (View.ld (iblk m c 1 t) rHi) (iblk m c 5 t) (iblk m c 4 t) (iblk m c 3 t)) (k0_pay6 (grid0.coords t) (View.ld (iblk m c 0 t) rLo) (View.ld (iblk m c 0 t) rHi) (View.ld (iblk m c 1 t) rLo) (View.ld (iblk m c 1 t) rHi) (iblk m c 5 t) (iblk m c 4 t) (iblk m c 3 t)) (k0_pay7 (grid0.coords t) (View.ld (iblk m c 0 t) rLo) (View.ld (iblk m c 0 t) rHi) (View.ld (iblk m c 1 t) rLo) (View.ld (iblk m c 1 t) rHi) (iblk m c 5 t) (iblk m c 4 t) (iblk m c 3 t)) (k0_pay8 (grid0.coords t) (View.ld (iblk m c 0 t) rLo) (View.ld (iblk m c 0 t) rHi) (View.ld (iblk m c 1 t) rLo) (View.ld (iblk m c 1 t) rHi) (iblk m c 5 t) (iblk m c 4 t) (iblk m c 3 t)) (Scalar.ofBits .f32 0x3F000000#32) y
      = hidG (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (ix2 (arow t (y 0)) (hi (y 1))) := by
  refine (hid_of_pay _ _ _ _ _ _ _ _ _ _ y).trans ?_
  refine Eq.trans ?_ (hidG_im _ _ _ _ _ _ _ _ _ (arow t (y 0)) (y 1)).symm
  exact hidOf_congr (pre_im m c t h1 (y 0) (gcol 3072 (y 1)) hr.x hr.h hr.I hr.Ir)
    ((cell_val_im m c hr t h1 y).trans (cellG_im _ _ _ _ _ _ _ _ _ (arow t (y 0)) (y 1)))

/-- A result block's index in its array: row `64 b + y 0`, column `1024 s + y 1` — the real half's column `lo`, the
    imaginary half's `hi`. -/
theorem out6_emb (t : Fin cfg0.N) (y : S64x1024.Idx) :
    ((grid0.coords t 0).val = 0 → ((cfg0.win 6).blk t).view.emb y = ix2 (n0 := 4096) (n1 := 2048) (arow t (y 0)) (lo (y 1)))
    ∧ ((grid0.coords t 0).val = 1 → ((cfg0.win 6).blk t).view.emb y = ix2 (n0 := 4096) (n1 := 2048) (arow t (y 0)) (hi (y 1))) := by
  obtain ⟨-, -, -, -, -, -, -, -, -, -, -, -, e0, e1, -⟩ := idx_facts t
  constructor <;> intro hs <;> refine funext fun a => Fin.ext ?_
  · match a with
    | ⟨0, _⟩ => show win0_6.index t (0 : Fin 2) * 64 + 1 * (y 0).val = (grid0.coords t 1).val * 64 + (y 0).val; rw [e0]; omega
    | ⟨1, _⟩ => show win0_6.index t (1 : Fin 2) * 1024 + 1 * (y 1).val = (y 1).val; rw [e1, hs]; omega
  · match a with
    | ⟨0, _⟩ => show win0_6.index t (0 : Fin 2) * 64 + 1 * (y 0).val = (grid0.coords t 1).val * 64 + (y 0).val; rw [e0]; omega
    | ⟨1, _⟩ => show win0_6.index t (1 : Fin 2) * 1024 + 1 * (y 1).val = 1024 + (y 1).val; rw [e1, hs]; omega
theorem out7_emb (t : Fin cfg0.N) (y : S64x1024.Idx) :
    ((grid0.coords t 0).val = 0 → ((cfg0.win 7).blk t).view.emb y = ix2 (n0 := 4096) (n1 := 2048) (arow t (y 0)) (lo (y 1)))
    ∧ ((grid0.coords t 0).val = 1 → ((cfg0.win 7).blk t).view.emb y = ix2 (n0 := 4096) (n1 := 2048) (arow t (y 0)) (hi (y 1))) := by
  obtain ⟨-, -, -, -, -, -, -, -, -, -, -, -, -, -, e0, e1, -⟩ := idx_facts t
  constructor <;> intro hs <;> refine funext fun a => Fin.ext ?_
  · match a with
    | ⟨0, _⟩ => show win0_7.index t (0 : Fin 2) * 64 + 1 * (y 0).val = (grid0.coords t 1).val * 64 + (y 0).val; rw [e0]; omega
    | ⟨1, _⟩ => show win0_7.index t (1 : Fin 2) * 1024 + 1 * (y 1).val = (y 1).val; rw [e1, hs]; omega
  · match a with
    | ⟨0, _⟩ => show win0_7.index t (0 : Fin 2) * 64 + 1 * (y 0).val = (grid0.coords t 1).val * 64 + (y 0).val; rw [e0]; omega
    | ⟨1, _⟩ => show win0_7.index t (1 : Fin 2) * 1024 + 1 * (y 1).val = 1024 + (y 1).val; rw [e1, hs]; omega

theorem half_cases (t : Fin cfg0.N) : (grid0.coords t 0).val = 0 ∨ (grid0.coords t 0).val = 1 := by
  have := (idx_facts t).2.2.2.2.2.2.2.2.2.2.2.2.2.2.2.2.1; omega

/-- What point `t` writes back to the cell-state array is its block of `cellG`. -/
theorem flushed_cell (c : Dev nD) (hr : RealArgs m c) (t : Fin cfg0.N) :
    (dats m 0 c).flushed 7 t = ((cfg0.win 7).blk t).view.read (Elt Ideal) (cellG (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))) := by
  show (cfg0.win 7).cut (grid0.coords t) ((dats m 0 c).after 7 t) = _
  rw [after7, cut7]
  unfold cellBlock
  rw [View.canon_unit_zero hz]
  simp only [View.ld_unit_zero (S := S1x4096) hz, View.ld_unit_zero (S := S4096x4096) hz]
  funext y
  show _ = cellG _ _ _ _ _ _ _ _ _ (((cfg0.win 7).blk t).view.emb y)
  rcases half_cases t with h | h
  · rw [(out7_emb t y).1 h]; exact cell_val_re m c t h y
  · rw [(out7_emb t y).2 h]; exact cell_val_im m c hr t h y

/-- What point `t` writes back to the hidden-state array is its block of `hidG`. -/
theorem flushed_hid (c : Dev nD) (hr : RealArgs m c) (t : Fin cfg0.N) :
    (dats m 0 c).flushed 6 t = ((cfg0.win 6).blk t).view.read (Elt Ideal) (hidG (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))) := by
  show (cfg0.win 6).cut (grid0.coords t) ((dats m 0 c).after 6 t) = _
  rw [after6, cut6]
  unfold hiddenBlock
  rw [View.canon_unit_zero hz]
  simp only [View.ld_unit_zero (S := S1x4096) hz, View.ld_unit_zero (S := S4096x4096) hz]
  funext y
  show _ = hidG _ _ _ _ _ _ _ _ _ (((cfg0.win 6).blk t).view.emb y)
  rcases half_cases t with h | h
  · rw [(out6_emb t y).1 h]; exact hid_val_re m c t h y
  · rw [(out6_emb t y).2 h]; exact hid_val_im m c hr t h y

/-- An index of a result array is in point `t`'s block iff each coordinate is in the block's range. -/
theorem mem_blk6 (t : Fin cfg0.N) (i : S4096x2048.Idx) :
    i ∈ ((cfg0.win 6).blk t).view.set ↔ ∀ a : Fin 2, win0_6.index t a * S64x1024.size a ≤ (i a).val ∧ (i a).val < win0_6.index t a * S64x1024.size a + S64x1024.size a := by
  show i ∈ ((View.whole main_v7_0).slice (win0_6.rect t)).set ↔ _
  rw [View.set_slice_whole, Rect.mem_set_unit]
  exact Iff.rfl
theorem mem_blk7 (t : Fin cfg0.N) (i : S4096x2048.Idx) :
    i ∈ ((cfg0.win 7).blk t).view.set ↔ ∀ a : Fin 2, win0_7.index t a * S64x1024.size a ≤ (i a).val ∧ (i a).val < win0_7.index t a * S64x1024.size a + S64x1024.size a := by
  show i ∈ ((View.whole main_v7_1).slice (win0_7.rect t)).set ↔ _
  rw [View.set_slice_whole, Rect.mem_set_unit]
  exact Iff.rfl

/-- The blocks tile the hidden-state array: row `r`, column `q` is in the block of batch tile `r / 64`, half `q / 1024`. -/
theorem cover6 (i : S4096x2048.Idx) : ∃ t : Fin cfg0.N, (cfg0.win 6).flush t = true ∧ i ∈ ((cfg0.win 6).blk t).view.set := by
  have hi0 : (i 0).val < 4096 := idx2_lt0 i
  have hi1 : (i 1).val < 2048 := idx2_lt1 i
  obtain ⟨t, hs, hb⟩ := idx_onto ⟨(i 1).val / 1024, by omega⟩ ⟨(i 0).val / 64, by omega⟩
  have hs' : (grid0.coords t 0).val = (i 1).val / 1024 := hs
  have hb' : (grid0.coords t 1).val = (i 0).val / 64 := hb
  obtain ⟨-, -, -, -, -, -, -, -, -, -, -, -, e60, e61, -⟩ := idx_facts t
  refine ⟨t, flush0_6 t, ?_⟩
  rw [mem_blk6]
  intro a
  match a with
  | ⟨0, _⟩ => show win0_6.index t (0 : Fin 2) * 64 ≤ (i 0).val ∧ (i 0).val < win0_6.index t (0 : Fin 2) * 64 + 64; rw [e60, hb']; omega
  | ⟨1, _⟩ => show win0_6.index t (1 : Fin 2) * 1024 ≤ (i 1).val ∧ (i 1).val < win0_6.index t (1 : Fin 2) * 1024 + 1024; rw [e61, hs']; omega

/-- The blocks tile the cell-state array. -/
theorem cover7 (i : S4096x2048.Idx) : ∃ t : Fin cfg0.N, (cfg0.win 7).flush t = true ∧ i ∈ ((cfg0.win 7).blk t).view.set := by
  have hi0 : (i 0).val < 4096 := idx2_lt0 i
  have hi1 : (i 1).val < 2048 := idx2_lt1 i
  obtain ⟨t, hs, hb⟩ := idx_onto ⟨(i 1).val / 1024, by omega⟩ ⟨(i 0).val / 64, by omega⟩
  have hs' : (grid0.coords t 0).val = (i 1).val / 1024 := hs
  have hb' : (grid0.coords t 1).val = (i 0).val / 64 := hb
  obtain ⟨-, -, -, -, -, -, -, -, -, -, -, -, -, -, e70, e71, -⟩ := idx_facts t
  refine ⟨t, flush0_7 t, ?_⟩
  rw [mem_blk7]
  intro a
  match a with
  | ⟨0, _⟩ => show win0_7.index t (0 : Fin 2) * 64 ≤ (i 0).val ∧ (i 0).val < win0_7.index t (0 : Fin 2) * 64 + 64; rw [e70, hb']; omega
  | ⟨1, _⟩ => show win0_7.index t (1 : Fin 2) * 1024 ≤ (i 1).val ∧ (i 1).val < win0_7.index t (1 : Fin 2) * 1024 + 1024; rw [e71, hs']; omega

/-- The hidden-state array after the run. -/
theorem final_hid (c : Dev nD) (hr : RealArgs m c) : (dats m 0 c).arrAt 6 cfg0.N = hidG (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) :=
  (dats m 0 c).arrAt_eq_of_cover 6 _ (fun t _ => flushed_hid m c hr t) cover6

/-- The cell-state array after the run. -/
theorem final_cell (c : Dev nD) (hr : RealArgs m c) : (dats m 0 c).arrAt 7 cfg0.N = cellG (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) :=
  (dats m 0 c).arrAt_eq_of_cover 7 _ (fun t _ => flushed_cell m c hr t) cover7

/-! ## The run, read -/

/-- Every weakly fair execution of the kernel's @main from a memory whose argument arrays hold reals terminates with
    the two results at the specification's functions of the arguments and the arguments unchanged. -/
theorem run (hr : ∀ c, RealArgs m c) : θ_run defs (onTc (τ := τ) (main (F := Ideal))) ⟨m, fun _ => 0, ρ⟩ fun r => ∀ c : Dev nD,
      r.2.mem ((c : Thread nD τ).loc main_v7_0) = hidG (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))
      ∧ r.2.mem ((c : Thread nD τ).loc main_v7_1) = cellG (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8) :=
  (θ_run defs _ _).mono (fun r h c => ⟨((h c).1 6).trans (final_hid m c (hr c)), ((h c).1 7).trans (final_cell m c (hr c)),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c)⟩)
    (run_main m ρ)

end Cert.KernelIdeal.KV

end
-- ==== Proof.RefValue.lean ====
/-
  The reference program computes `hidG` and `cellG`.

  Its @main forms the real and imaginary pre-activations as four matrix products each — the real and imaginary
  column halves of the input and of the hidden state against the four weight matrices — summed and subtracted in
  the order `preRe` and `preIm` spell, plus the bias row; cuts each into its four gates; lays each gate's real and
  imaginary halves side by side; and applies the hard sigmoid, the hyperbolic tangent and the cell update to whole
  arrays. Read at an index, a gate's array is the real pre-activation where the column is below 1024 and the
  imaginary one, the column less 1024, otherwise; everything after is pointwise.
-/
import proofs.«110221_j51677046505499_2_alg».proof.Proof.Gen.ReferenceIdeal.Read
import proofs.«110221_j51677046505499_2_alg».proof.Proof.Spec
import proofs.«110221_j51677046505499_2_alg».proof.Proof.LibBands

noncomputable section

namespace Cert.ReferenceIdeal.RefValue

open Cert.ReferenceIdeal Cert.ReferenceIdeal.Gen Cert.ReferenceIdeal.Read Cert.CLstm Cert.LibBands
open Idealize.ShloMosaic Idealize.ShloMosaic.TcCoe Idealize.ShloMosaic.ValueIdx Idealize.SL.Sem

/-! ## The indices the matrix products read -/

theorem lcol4 (i : S4096x4096.Idx) (k : Fin 1024) : idx_main_v0 (lidx_main_v4 i k) = ix2 (n0 := 4096) (n1 := 2048) (i 0) (lo k) :=
  funext fun a => match a with | ⟨0, _⟩ => rfl | ⟨1, _⟩ => rfl
theorem rrow4 (i : S4096x4096.Idx) (k : Fin 1024) : ridx_main_v4 i k = ix2 (n0 := 1024) (n1 := 4096) k (i 1) :=
  funext fun a => match a with | ⟨0, _⟩ => rfl | ⟨1, _⟩ => rfl
theorem lcol5 (i : S4096x4096.Idx) (k : Fin 1024) : idx_main_v1 (lidx_main_v5 i k) = ix2 (n0 := 4096) (n1 := 2048) (i 0) (hi k) :=
  funext fun a => match a with | ⟨0, _⟩ => rfl | ⟨1, _⟩ => rfl
theorem rrow5 (i : S4096x4096.Idx) (k : Fin 1024) : ridx_main_v5 i k = ix2 (n0 := 1024) (n1 := 4096) k (i 1) :=
  funext fun a => match a with | ⟨0, _⟩ => rfl | ⟨1, _⟩ => rfl
theorem lcol7 (i : S4096x4096.Idx) (k : Fin 1024) : idx_main_v2 (lidx_main_v7 i k) = ix2 (n0 := 4096) (n1 := 2048) (i 0) (lo k) :=
  funext fun a => match a with | ⟨0, _⟩ => rfl | ⟨1, _⟩ => rfl
theorem rrow7 (i : S4096x4096.Idx) (k : Fin 1024) : ridx_main_v7 i k = ix2 (n0 := 1024) (n1 := 4096) k (i 1) :=
  funext fun a => match a with | ⟨0, _⟩ => rfl | ⟨1, _⟩ => rfl
theorem lcol9 (i : S4096x4096.Idx) (k : Fin 1024) : idx_main_v3 (lidx_main_v9 i k) = ix2 (n0 := 4096) (n1 := 2048) (i 0) (hi k) :=
  funext fun a => match a with | ⟨0, _⟩ => rfl | ⟨1, _⟩ => rfl
theorem rrow9 (i : S4096x4096.Idx) (k : Fin 1024) : ridx_main_v9 i k = ix2 (n0 := 1024) (n1 := 4096) k (i 1) :=
  funext fun a => match a with | ⟨0, _⟩ => rfl | ⟨1, _⟩ => rfl
theorem lcol14 (i : S4096x4096.Idx) (k : Fin 1024) : idx_main_v1 (lidx_main_v14 i k) = ix2 (n0 := 4096) (n1 := 2048) (i 0) (hi k) :=
  funext fun a => match a with | ⟨0, _⟩ => rfl | ⟨1, _⟩ => rfl
theorem rrow14 (i : S4096x4096.Idx) (k : Fin 1024) : ridx_main_v14 i k = ix2 (n0 := 1024) (n1 := 4096) k (i 1) :=
  funext fun a => match a with | ⟨0, _⟩ => rfl | ⟨1, _⟩ => rfl
theorem lcol15 (i : S4096x4096.Idx) (k : Fin 1024) : idx_main_v0 (lidx_main_v15 i k) = ix2 (n0 := 4096) (n1 := 2048) (i 0) (lo k) :=
  funext fun a => match a with | ⟨0, _⟩ => rfl | ⟨1, _⟩ => rfl
theorem rrow15 (i : S4096x4096.Idx) (k : Fin 1024) : ridx_main_v15 i k = ix2 (n0 := 1024) (n1 := 4096) k (i 1) :=
  funext fun a => match a with | ⟨0, _⟩ => rfl | ⟨1, _⟩ => rfl
theorem lcol17 (i : S4096x4096.Idx) (k : Fin 1024) : idx_main_v3 (lidx_main_v17 i k) = ix2 (n0 := 4096) (n1 := 2048) (i 0) (hi k) :=
  funext fun a => match a with | ⟨0, _⟩ => rfl | ⟨1, _⟩ => rfl
theorem rrow17 (i : S4096x4096.Idx) (k : Fin 1024) : ridx_main_v17 i k = ix2 (n0 := 1024) (n1 := 4096) k (i 1) :=
  funext fun a => match a with | ⟨0, _⟩ => rfl | ⟨1, _⟩ => rfl
theorem lcol19 (i : S4096x4096.Idx) (k : Fin 1024) : idx_main_v2 (lidx_main_v19 i k) = ix2 (n0 := 4096) (n1 := 2048) (i 0) (lo k) :=
  funext fun a => match a with | ⟨0, _⟩ => rfl | ⟨1, _⟩ => rfl
theorem rrow19 (i : S4096x4096.Idx) (k : Fin 1024) : ridx_main_v19 i k = ix2 (n0 := 1024) (n1 := 4096) k (i 1) :=
  funext fun a => match a with | ⟨0, _⟩ => rfl | ⟨1, _⟩ => rfl
theorem bias12 (i : S4096x4096.Idx) : idx_main_v11 (idx_main_v12 i) = ix1 (n := 4096) (i 1) :=
  funext fun a => match a with | ⟨0, _⟩ => rfl
theorem bias22 (i : S4096x4096.Idx) : idx_main_v21 (idx_main_v22 i) = ix1 (n := 4096) (i 1) :=
  funext fun a => match a with | ⟨0, _⟩ => rfl

/-! ## The pre-activations -/

/-- The real pre-activation array, at an index. -/
theorem preRe_eq (x0 x1 : (⟨S4096x2048, .f32⟩ : BufTy).Contents (Elt Ideal)) (x3 x4 x5 x6 : (⟨S1024x4096, .f32⟩ : BufTy).Contents (Elt Ideal)) (x7 : (⟨S4096, .f32⟩ : BufTy).Contents (Elt Ideal)) (i : S4096x4096.Idx) :
    val_main_v13 (F := Ideal) x0 x1 x3 x4 x5 x6 x7 i = preRe x0 x1 x3 x4 x5 x6 x7 (i 0) (i 1) := by
  rw [val_main_v13_apply, val_main_v10_apply, val_main_v8_apply, val_main_v6_apply, val_main_v4_apply, val_main_v5_apply,
    val_main_v7_apply, val_main_v9_apply, val_main_v12_apply, val_main_v11_apply]
  simp only [val_main_v0_apply, val_main_v1_apply, val_main_v2_apply, val_main_v3_apply, lcol4, lcol5, lcol7, lcol9,
    rrow4, rrow5, rrow7, rrow9, bias12]
  rfl

/-- The imaginary pre-activation array, at an index. -/
theorem preIm_eq (x0 x1 : (⟨S4096x2048, .f32⟩ : BufTy).Contents (Elt Ideal)) (x3 x4 x5 x6 : (⟨S1024x4096, .f32⟩ : BufTy).Contents (Elt Ideal)) (x8 : (⟨S4096, .f32⟩ : BufTy).Contents (Elt Ideal)) (i : S4096x4096.Idx) :
    val_main_v23 (F := Ideal) x0 x1 x3 x4 x5 x6 x8 i = preIm x0 x1 x3 x4 x5 x6 x8 (i 0) (i 1) := by
  rw [val_main_v23_apply, val_main_v20_apply, val_main_v18_apply, val_main_v16_apply, val_main_v14_apply, val_main_v15_apply,
    val_main_v17_apply, val_main_v19_apply, val_main_v22_apply, val_main_v21_apply]
  simp only [val_main_v0_apply, val_main_v1_apply, val_main_v2_apply, val_main_v3_apply, lcol14, lcol15, lcol17, lcol19,
    rrow14, rrow15, rrow17, rrow19, bias22]
  rfl

theorem preRe_at (x0 x1 : (⟨S4096x2048, .f32⟩ : BufTy).Contents (Elt Ideal)) (x3 x4 x5 x6 : (⟨S1024x4096, .f32⟩ : BufTy).Contents (Elt Ideal)) (x7 : (⟨S4096, .f32⟩ : BufTy).Contents (Elt Ideal)) (i : S4096x4096.Idx) (b n : Fin 4096)
    (h0 : (i 0).val = b.val) (h1 : (i 1).val = n.val) : val_main_v13 (F := Ideal) x0 x1 x3 x4 x5 x6 x7 i = preRe x0 x1 x3 x4 x5 x6 x7 b n := by
  have e0 : i 0 = b := Fin.ext h0
  have e1 : i 1 = n := Fin.ext h1
  rw [preRe_eq, e0, e1]

theorem preIm_at (x0 x1 : (⟨S4096x2048, .f32⟩ : BufTy).Contents (Elt Ideal)) (x3 x4 x5 x6 : (⟨S1024x4096, .f32⟩ : BufTy).Contents (Elt Ideal)) (x8 : (⟨S4096, .f32⟩ : BufTy).Contents (Elt Ideal)) (i : S4096x4096.Idx) (b n : Fin 4096)
    (h0 : (i 0).val = b.val) (h1 : (i 1).val = n.val) : val_main_v23 (F := Ideal) x0 x1 x3 x4 x5 x6 x8 i = preIm x0 x1 x3 x4 x5 x6 x8 b n := by
  have e0 : i 0 = b := Fin.ext h0
  have e1 : i 1 = n := Fin.ext h1
  rw [preIm_eq, e0, e1]

/-! ## The gates: real and imaginary halves side by side -/

/-- The gate whose columns start at 0, at an index. -/
theorem gate26 (x0 x1 : (⟨S4096x2048, .f32⟩ : BufTy).Contents (Elt Ideal)) (x3 x4 x5 x6 : (⟨S1024x4096, .f32⟩ : BufTy).Contents (Elt Ideal)) (x7 x8 : (⟨S4096, .f32⟩ : BufTy).Contents (Elt Ideal)) (j : S4096x2048.Idx) :
    val_main_v26 (F := Ideal) x0 x1 x3 x4 x5 x6 x7 x8 j
      = if hj : (j 1).val < 1024 then preRe x0 x1 x3 x4 x5 x6 x7 (j 0) (gcol 0 ⟨(j 1).val, hj⟩)
        else preIm x0 x1 x3 x4 x5 x6 x8 (j 0) (gcol 0 ⟨(j 1).val - 1024, by have := idx2_lt1 j; omega⟩) := by
  unfold val_main_v26
  refine (concat_cols_pair_apply (B := 4096) (n₁ := 1024) (n₂ := 1024) (N := 2048) _ _ _ rfl j).trans ?_
  by_cases hj : (j 1).val < 1024
  · simp only [dif_pos hj]
    rw [val_main_v24_apply]
    exact preRe_at _ _ _ _ _ _ _ _ _ _ rfl (by show (j 1).val = 0 + (j 1).val; omega)
  · simp only [dif_neg hj]
    rw [val_main_v25_apply]
    exact preIm_at _ _ _ _ _ _ _ _ _ _ rfl (by show (j 1).val - 1024 = 0 + ((j 1).val - 1024); omega)

/-- The gate whose columns start at 1024, at an index. -/
theorem gate34 (x0 x1 : (⟨S4096x2048, .f32⟩ : BufTy).Contents (Elt Ideal)) (x3 x4 x5 x6 : (⟨S1024x4096, .f32⟩ : BufTy).Contents (Elt Ideal)) (x7 x8 : (⟨S4096, .f32⟩ : BufTy).Contents (Elt Ideal)) (j : S4096x2048.Idx) :
    val_main_v34 (F := Ideal) x0 x1 x3 x4 x5 x6 x7 x8 j
      = if hj : (j 1).val < 1024 then preRe x0 x1 x3 x4 x5 x6 x7 (j 0) (gcol 1024 ⟨(j 1).val, hj⟩)
        else preIm x0 x1 x3 x4 x5 x6 x8 (j 0) (gcol 1024 ⟨(j 1).val - 1024, by have := idx2_lt1 j; omega⟩) := by
  unfold val_main_v34
  refine (concat_cols_pair_apply (B := 4096) (n₁ := 1024) (n₂ := 1024) (N := 2048) _ _ _ rfl j).trans ?_
  by_cases hj : (j 1).val < 1024
  · simp only [dif_pos hj]
    rw [val_main_v32_apply]
    exact preRe_at _ _ _ _ _ _ _ _ _ _ rfl (by show 1024 + (j 1).val = 1024 + (j 1).val; omega)
  · simp only [dif_neg hj]
    rw [val_main_v33_apply]
    exact preIm_at _ _ _ _ _ _ _ _ _ _ rfl (by show 1024 + ((j 1).val - 1024) = 1024 + ((j 1).val - 1024); omega)

/-- The gate whose columns start at 2048, at an index. -/
theorem gate43 (x0 x1 : (⟨S4096x2048, .f32⟩ : BufTy).Contents (Elt Ideal)) (x3 x4 x5 x6 : (⟨S1024x4096, .f32⟩ : BufTy).Contents (Elt Ideal)) (x7 x8 : (⟨S4096, .f32⟩ : BufTy).Contents (Elt Ideal)) (j : S4096x2048.Idx) :
    val_main_v43 (F := Ideal) x0 x1 x3 x4 x5 x6 x7 x8 j
      = if hj : (j 1).val < 1024 then preRe x0 x1 x3 x4 x5 x6 x7 (j 0) (gcol 2048 ⟨(j 1).val, hj⟩)
        else preIm x0 x1 x3 x4 x5 x6 x8 (j 0) (gcol 2048 ⟨(j 1).val - 1024, by have := idx2_lt1 j; omega⟩) := by
  unfold val_main_v43
  refine (concat_cols_pair_apply (B := 4096) (n₁ := 1024) (n₂ := 1024) (N := 2048) _ _ _ rfl j).trans ?_
  by_cases hj : (j 1).val < 1024
  · simp only [dif_pos hj]
    rw [val_main_v41_apply]
    exact preRe_at _ _ _ _ _ _ _ _ _ _ rfl (by show 2048 + (j 1).val = 2048 + (j 1).val; omega)
  · simp only [dif_neg hj]
    rw [val_main_v42_apply]
    exact preIm_at _ _ _ _ _ _ _ _ _ _ rfl (by show 2048 + ((j 1).val - 1024) = 2048 + ((j 1).val - 1024); omega)

/-- The gate whose columns start at 3072, at an index. -/
theorem gate49 (x0 x1 : (⟨S4096x2048, .f32⟩ : BufTy).Contents (Elt Ideal)) (x3 x4 x5 x6 : (⟨S1024x4096, .f32⟩ : BufTy).Contents (Elt Ideal)) (x7 x8 : (⟨S4096, .f32⟩ : BufTy).Contents (Elt Ideal)) (j : S4096x2048.Idx) :
    val_main_v49 (F := Ideal) x0 x1 x3 x4 x5 x6 x7 x8 j
      = if hj : (j 1).val < 1024 then preRe x0 x1 x3 x4 x5 x6 x7 (j 0) (gcol 3072 ⟨(j 1).val, hj⟩)
        else preIm x0 x1 x3 x4 x5 x6 x8 (j 0) (gcol 3072 ⟨(j 1).val - 1024, by have := idx2_lt1 j; omega⟩) := by
  unfold val_main_v49
  refine (concat_cols_pair_apply (B := 4096) (n₁ := 1024) (n₂ := 1024) (N := 2048) _ _ _ rfl j).trans ?_
  by_cases hj : (j 1).val < 1024
  · simp only [dif_pos hj]
    rw [val_main_v47_apply]
    exact preRe_at _ _ _ _ _ _ _ _ _ _ rfl (by show 3072 + (j 1).val = 3072 + (j 1).val; omega)
  · simp only [dif_neg hj]
    rw [val_main_v48_apply]
    exact preIm_at _ _ _ _ _ _ _ _ _ _ rfl (by show 3072 + ((j 1).val - 1024) = 3072 + ((j 1).val - 1024); omega)

/-! ## The results -/

/-- The reference's second result is the new cell state. -/
theorem cell_eq (x0 x1 x2 : (⟨S4096x2048, .f32⟩ : BufTy).Contents (Elt Ideal)) (x3 x4 x5 x6 : (⟨S1024x4096, .f32⟩ : BufTy).Contents (Elt Ideal)) (x7 x8 : (⟨S4096, .f32⟩ : BufTy).Contents (Elt Ideal)) :
    val_main_v46 (F := Ideal) x0 x1 x2 x3 x4 x5 x6 x7 x8 = cellG x0 x1 x2 x3 x4 x5 x6 x7 x8 := by
  funext j
  simp only [val_main_v46_apply, val_main_v40_apply, val_main_v45_apply, val_main_v39_apply, val_main_v31_apply, val_main_v44_apply,
    val_main_call1_v2_apply, val_main_call1_v1_apply, val_main_call1_v0_apply, val_main_call1_v4_apply, val_main_call1_v3_apply,
    val_main_call0_v2_apply, val_main_call0_v1_apply, val_main_call0_v0_apply, val_main_call0_v4_apply, val_main_call0_v3_apply,
    val_main_v38_apply, val_main_v36_apply, val_main_v35_apply, val_main_v37_apply, val_main_v30_apply, val_main_v28_apply,
    val_main_v27_apply, val_main_v29_apply, val_main_cst_apply, val_main_cst_0_apply, val_main_cst_1_apply, val_main_cst_2_apply,
    val_main_cst_3_apply, val_main_cst_4_apply, val_main_cst_5_apply, val_main_cst_6_apply, gate26, gate34, gate43]
  unfold cellG
  by_cases hj : (j 1).val < 1024
  · simp only [dif_pos hj]; rfl
  · simp only [dif_neg hj]; rfl

/-- The reference's first result is the new hidden state. -/
theorem hid_eq (x0 x1 x2 : (⟨S4096x2048, .f32⟩ : BufTy).Contents (Elt Ideal)) (x3 x4 x5 x6 : (⟨S1024x4096, .f32⟩ : BufTy).Contents (Elt Ideal)) (x7 x8 : (⟨S4096, .f32⟩ : BufTy).Contents (Elt Ideal)) :
    val_main_v56 (F := Ideal) x0 x1 x2 x3 x4 x5 x6 x7 x8 = hidG x0 x1 x2 x3 x4 x5 x6 x7 x8 := by
  funext j
  rw [val_main_v56_apply, val_main_v55_apply, cell_eq]
  simp only [val_main_v54_apply, val_main_call2_v2_apply, val_main_call2_v1_apply, val_main_call2_v0_apply, val_main_call2_v4_apply,
    val_main_call2_v3_apply, val_main_v53_apply, val_main_v51_apply, val_main_v50_apply, val_main_v52_apply, val_main_cst_7_apply,
    val_main_cst_8_apply, val_main_cst_9_apply, val_main_cst_10_apply, gate49]
  unfold hidG cellG
  by_cases hj : (j 1).val < 1024
  · simp only [dif_pos hj]; rfl
  · simp only [dif_neg hj]; rfl

end Cert.ReferenceIdeal.RefValue

end
-- ==== Proof.Finite.lean ====
/-
  Finiteness of the inputs. The precondition of the certificate says of each of its nine float arrays that every
  entry has absolute value below +∞, and takes the conjunction. At the ideal instance a float is an extended real,
  so the precondition says that no entry is +∞ or -∞ (the value a pattern that is not a number denotes is -∞):
  every entry of every array is a real number.
-/
import proofs.«110221_j51677046505499_2_alg».proof.Pre_finite_inputs
import proofs.«110221_j51677046505499_2_alg».proof.Proof.Gen.Pre_finite_inputs
import Idealize.ShloMosaic.Lib.ReduceAll
import Idealize.ShloMosaic.Lib.ValueIdx
import Idealize.ShloMosaic.PureOps.Ideal

namespace Cert.CLstm.Finite

open Idealize.ShloMosaic Idealize.ShloMosaic.ValueIdx Cert.Pre_finite_inputs

/-- The shape with no axes has exactly one index. -/
instance subsingleton_S_Idx : Subsingleton S_.Idx := ⟨fun a b => funext fun d => d.elim0⟩

/-- The f32 pattern `0x7F800000` denotes +∞. -/
theorem ofBits_inf_f32 : Ideal.ofBits .f32 0x7F800000#32 = (⊤ : EReal) := by
  simp [Ideal.ofBits, Ideal.ieee]

/-- An extended real `x` with `max x (-x) < +∞` is a real: at `x = +∞` the maximum is `+∞`, and at `x = -∞` it is
    `-x = +∞`. -/
theorem real_of_abs_lt (x : EReal)
    (h : Ideal.cmp .olt (max x (-x)) (Ideal.ofBits .f32 0x7F800000#32) = 1#1) : ∃ r : ℝ, x = (r : EReal) := by
  rw [ofBits_inf_f32] at h
  induction x using EReal.rec with
  | bot => simp [Ideal.cmp] at h
  | top => simp [Ideal.cmp] at h
  | coe r => exact ⟨r, rfl⟩

/-- One conjunct of the precondition, read at an index: if the conjunction over all indices of `|a i| < +∞` is 1,
    then `a i` is a real at every index `i`. The conjunction is a reduction by `and` over all axes, so each of its
    operands is 1; the operand at `i` compares `max (a i) (-(a i))` with the value of the pattern `0x7F800000`. -/
theorem real_of_all {s : Shape} (a : FVec Ideal s .f32) (hb : S_.BroadcastsInDim s (![] : Fin 0 → Fin s.rank))
    {axes : List (Fin s.rank)} (hr : s.ReducesTo axes S_) (hu : 0 < S_.numel)
    (e : Host.reduce IntOp.andi
        (cmpf .olt (Host.absf a) (broadcastInDim s ![] hb (constant (F := Ideal) S_ .f32 0x7F800000#32)))
        (constantI S_ 1 1#1) hr hu ix0 = 1#1) (i : s.Idx) : ∃ r : ℝ, a i = (r : EReal) :=
  real_of_abs_lt (a i) (Host.reduce_andi_all _ _ hr hu ix0 e i)

/-- If the precondition's predicate is all ones, every entry of every one of its nine arrays is a real. The predicate
    is the conjunction, nested to the left, of the nine per-array conjunctions; it is 1 exactly when each of them is. -/
theorem real_of_pre
    (a0 a1 a2 : FVec Ideal S4096x2048 .f32) (a3 a4 a5 a6 : FVec Ideal S1024x4096 .f32)
    (a7 a8 : FVec Ideal S4096 .f32)
    (h : fn (F := Ideal) a0 a1 a2 a3 a4 a5 a6 a7 a8 = (fun _ => 1#1)) :
    (∀ i, ∃ r : ℝ, a0 i = (r : EReal)) ∧ (∀ i, ∃ r : ℝ, a1 i = (r : EReal)) ∧ (∀ i, ∃ r : ℝ, a2 i = (r : EReal))
    ∧ (∀ i, ∃ r : ℝ, a3 i = (r : EReal)) ∧ (∀ i, ∃ r : ℝ, a4 i = (r : EReal)) ∧ (∀ i, ∃ r : ℝ, a5 i = (r : EReal))
    ∧ (∀ i, ∃ r : ℝ, a6 i = (r : EReal)) ∧ (∀ i, ∃ r : ℝ, a7 i = (r : EReal)) ∧ (∀ i, ∃ r : ℝ, a8 i = (r : EReal)) := by
  have h0 := congrFun h ix0
  dsimp only [fn, fn_part1, fn_part2, Idealize.ShloMosaic.andi] at h0
  simp only [IntOp.andi_eq_one] at h0
  obtain ⟨⟨⟨⟨⟨⟨⟨⟨e0, e1⟩, e2⟩, e3⟩, e4⟩, e5⟩, e6⟩, e7⟩, e8⟩ := h0
  exact ⟨real_of_all a0 _ _ _ e0, real_of_all a1 _ _ _ e1, real_of_all a2 _ _ _ e2, real_of_all a3 _ _ _ e3,
    real_of_all a4 _ _ _ e4, real_of_all a5 _ _ _ e5, real_of_all a6 _ _ _ e6, real_of_all a7 _ _ _ e7,
    real_of_all a8 _ _ _ e8⟩

end Cert.CLstm.Finite
-- ==== Proof.lean ====
/-
  The certificate of a complex-valued LSTM cell: a kernel that computes, for each half (real, imaginary) and each
  tile of 64 batch rows, ONE product of the 4096-long row `[xr, xi, hr, hi]` (or `[xi, −xr, hi, −hr]`) with the four
  weight matrices stacked on top of one another, then the gates and the cell update — against the reference, which
  forms the same pre-activations as eight separate products, added and subtracted.

  The three frames: the two kernel programs' by the region's launch theorem over a body that reads its input blocks
  and covers its two output blocks (FrameBits, FrameIdeal); the reference's by its run. The ideal pass rewrote
  nothing, so the idealization is the program's own text. At the ideal instance both programs end with the new
  hidden state `hidG` and the new cell state `cellG` of the argument arrays (Spec): the kernel because its blocks
  tile the arrays and each block's entries are the specification's (KernelValue: a sum over the stacked axis is the
  sum of its four quarters, and a quarter with negated left factors is the negated quarter because the entries are
  real — this is where the precondition is used), the reference operation by operation (RefValue).
-/
import proofs.«110221_j51677046505499_2_alg».proof.Defs
import proofs.«110221_j51677046505499_2_alg».proof.Proof.Gen.Kernel
import proofs.«110221_j51677046505499_2_alg».proof.Proof.Gen.KernelIdeal
import proofs.«110221_j51677046505499_2_alg».proof.Proof.Gen.ReferenceIdeal
import proofs.«110221_j51677046505499_2_alg».proof.Proof.Gen.Pre_finite_inputs
import proofs.«110221_j51677046505499_2_alg».proof.Proof.Gen.ReferenceIdeal.Run
import proofs.«110221_j51677046505499_2_alg».proof.Proof.Gen.ReferenceIdeal.Read
import proofs.«110221_j51677046505499_2_alg».proof.Proof.FrameBits
import proofs.«110221_j51677046505499_2_alg».proof.Proof.FrameIdeal
import proofs.«110221_j51677046505499_2_alg».proof.Proof.KernelValue
import proofs.«110221_j51677046505499_2_alg».proof.Proof.RefValue
import proofs.«110221_j51677046505499_2_alg».proof.Proof.Finite

noncomputable section

namespace Cert.Proof

open Idealize.ShloMosaic Idealize.ShloMosaic.TcCoe Idealize.SL.Sem Cert.CLstm

/-- The word-level kernel runs to its end and leaves its arguments unchanged. -/
theorem frame_p : Cert.frame_Kernel := fun m ρ _ => Cert.Kernel.Hand.frame m ρ

/-- So does the idealized kernel. -/
theorem frame_pi : Cert.frame_KernelIdeal := fun m ρ _ => Cert.KernelIdeal.Hand.frame m ρ

/-- So does the reference: its run, the results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- Under the precondition the entries of the argument arrays are real. -/
theorem real_args (m : (ℓ : Loc Cert.KernelIdeal.nD Cert.KernelIdeal.τ Cert.KernelIdeal.sig) → Buf (Elt Ideal) ℓ) (hpre : Cert.Pre_KernelIdeal m) (c : Dev Cert.KernelIdeal.nD) :
    Cert.KernelIdeal.KV.RealArgs m c := by
  have h := Cert.CLstm.Finite.real_of_pre _ _ _ _ _ _ _ _ _ (hpre c)
  exact ⟨h.1, h.2.1, h.2.2.2.2.1, h.2.2.2.2.2.2.1⟩

/-- At the ideal instance both programs end with `hidG` and `cellG` of arguments that agree. -/
theorem algebraic : Cert.algebraic_KernelIdeal_ReferenceIdeal := by
  intro m ρ m' ρ' hpre hagree
  refine ⟨fun c => hidG (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)), fun c => cellG (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)),
    Cert.KernelIdeal.KV.run m ρ (real_args m hpre), ?_⟩
  refine (θ_run Cert.ReferenceIdeal.defs _ _).mono (fun _ h c => ⟨?_, ?_, (h c).2.2⟩)
    (Cert.ReferenceIdeal.Value.run (F := Ideal) m' ρ')
  · obtain ⟨a0, a1, a2, a3, a4, a5, a6, a7, a8⟩ := hagree c
    rw [(h c).1, Cert.ReferenceIdeal.Read.val_main_v56_eq, Cert.ReferenceIdeal.RefValue.hid_eq, a0, a1, a2, a3, a4, a5, a6, a7, a8]
  · obtain ⟨a0, a1, a2, a3, a4, a5, a6, a7, a8⟩ := hagree c
    rw [(h c).2.1, Cert.ReferenceIdeal.Read.val_main_v46_eq, Cert.ReferenceIdeal.RefValue.cell_eq, a0, a1, a2, a3, a4, a5, a6, a7, a8]

theorem claim : Cert.Claim := ⟨Cert.Kernel.Gen.facts, Cert.KernelIdeal.Gen.facts, Cert.ReferenceIdeal.Gen.facts, Cert.Pre_finite_inputs.Gen.facts,
  frame_p, frame_pi, frame_ri, trivial, algebraic⟩

end Cert.Proof

end
